-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x256 .f32) (main_arg3 : FVec F S256 .f32) (main_arg4 : FVec F S256x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S400x10000 : Shape := ⟨2, ![400, 10000]⟩
abbrev S400x128 : Shape := ⟨2, ![400, 128]⟩
abbrev S10000x1 : Shape := ⟨2, ![10000, 1]⟩
abbrev S400 : Shape := ⟨1, ![400]⟩
abbrev S400x1 : Shape := ⟨2, ![400, 1]⟩
abbrev S400x256 : Shape := ⟨2, ![400, 256]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x256, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x256, .f32⟩
  | .local _ .vmem, ⟨4, _⟩ => ⟨S1x256, .f32⟩
  | .local _ .vmem, ⟨5, _⟩ => ⟨S256x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | .local _ .vmem, ⟨10, _⟩ => ⟨S10000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c25_i32_1 : BitVec 32 := 25#32
  let v2 : BitVec 1 := Scalar.cmpi .slt arg0 c25_i32_1
  let v3 : BitVec 32 := Scalar.extui v2
  let c0_i32 : BitVec 32 := 0#32
  let v4 : BitVec 1 := Scalar.cmpi .ne v3 c0_i32
  v4

def k0_off1 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v10 : BitVec 32 := Scalar.muli v0 c400_i32
  let v11 : Index := Scalar.indexCast v10
  let c0_4 : Index := 0#32
  ![v11.toNat, 0]
def k0_off2 (i : grid0.Coords) : Fin 2 → Nat :=
  let arg0 : BitVec 32 := BitVec.ofNat 32 (i 0).val
  let c25_i32 : BitVec 32 := 25#32
  let v0 : BitVec 32 := Scalar.remsi arg0 c25_i32
  let c400_i32_17 : BitVec 32 := 400#32
  let v29 : BitVec 32 := Scalar.muli v0 c400_i32_17
  let v30 : Index := Scalar.indexCast v29
  let c0_18 : Index := 0#32
  ![v30.toNat, 0]
def k0_cond2 (i : grid0.Coords) : BitVec 1 :=
  let arg0 : BitVec 32 := BitVec.ofNat 32 (i 0).val
  let c25_i32_2 : BitVec 32 := 25#32
  let v5 : BitVec 1 := Scalar.cmpi .sge arg0 c25_i32_2
  let v6 : BitVec 32 := Scalar.extui v5
  let c0_i32_3 : BitVec 32 := 0#32
  let v7 : BitVec 1 := Scalar.cmpi .ne v6 c0_i32_3
  v7

def k0_off3 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v8 : BitVec 32 := Scalar.muli v0 c400_i32
  let v9 : Index := Scalar.indexCast v8
  let c0_4 : Index := 0#32
  ![v9.toNat, 0]
def cc0_transform_0 (i : grid0.Coords) : Fin 2 → Nat :=
  let arg0 : BitVec 32 := BitVec.ofNat 32 (i 0).val
  let c25_i32 : BitVec 32 := 25#32
  let v0 : BitVec 32 := Scalar.remsi arg0 c25_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  h_S400x1 : 0 < S400x1.numel
  shapeCasts_S400x1_S400x1 : S400x1.ShapeCasts S400x1
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S400x1_S400x256 : S400x1.Broadcasts S400x256
  broadcasts_S1x256_S400x256 : S1x256.Broadcasts S400x256
  inb_S256x128_S256x128_0_0 : ∀ a, (![0, 0] : Fin 2 → Nat) a + S256x128.size a ≤ S256x128.size a
  h_S256x128 : 0 < S256x128.numel
  h_S400x128 : 0 < S400x128.numel
  shapeCasts_S400x128_S400x128 : S400x128.ShapeCasts S400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S400x1_S400x128 : S400x1.Broadcasts S400x128
  broadcasts_S1x128_S400x128 : S1x128.Broadcasts S400x128
  reduces_S400x128_S400 : S400x128.Reduces [1] S400
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  dot_S400x256_S256x128_S400x128_1_0_0_1_n_n_wf : DotDims.WF S400x256 S256x128 S400x128 [1] [0] [0] [1] [] []
  hrank0 : 0 < grid0.rank
  k0_off1_inb : ∀ i : grid0.Coords, ∀ (k0_h1 : k0_cond1 i = 1#1), ∀ a, (k0_off1 i) a + S400x1.size a ≤ S10000x1.size a
  k0_off2_inb : ∀ i : grid0.Coords, ∀ (k0_h1 : k0_cond1 i = 1#1), ∀ a, (k0_off2 i) a + S400x128.size a ≤ S10000x128.size a
  k0_off3_inb : ∀ i : grid0.Coords, ∀ (k0_h2 : k0_cond2 i = 1#1), ∀ a, (k0_off3 i) a + S400x1.size a ≤ S10000x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S10000x256 : Shape := ⟨2, ![10000, 256]⟩
abbrev S1x256 : Shape := ⟨2, ![1, 256]⟩
abbrev S_ : Shape := ⟨0, ![]⟩
abbrev S1x128 : Shape := ⟨2, ![1, 128]⟩
abbrev S10000 : Shape := ⟨1, ![10000]⟩
abbrev S10000x1 : Shape := ⟨2, ![10000, 1]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000, .f32⟩
  | .hbm, ⟨22, _⟩ => ⟨S10000x1, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.SweepsBits.Setting.lean ====
/-
  The two sweeps of the fused kernel over its grid of 50 points, and the names the body's run is stated over.
  Points 0 … 24 are the FIRST sweep: point t streams strip t of the adjacency (rows 400·t … 400·t + 399), stores
  the strip's row sums into rows 400·t … of the carried column and the projected hidden rows into rows 400·t … of
  the carried matrix, and leaves the output block untouched. Points 25 … 49 are the SECOND sweep: point t streams
  strip t − 25 again, reads the carried matrix whole and the carried column's rows 400·(t − 25) …, and stores the
  normalised output rows into the output block, which the pipeline writes back after each such point.
  Everything here is decided over the 50 points by evaluation.
-/
import proofs.«152062_g74156905332815_cont_9to1_m_764_11_alg».proof.Proof.Gen.Kernel.Frame
import proofs.«152062_g74156905332815_cont_9to1_m_764_11_alg».proof.Proof.Gen.Kernel.Skeleton

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## Which sweep a point is in -/

/-- The body's first branch is taken: the point is in the first sweep. -/
abbrev inFirst (i : grid0.Coords) : Prop := k0_cond1 i = 1#1
/-- The body's second branch is taken: the point is in the second sweep. -/
abbrev inSecond (i : grid0.Coords) : Prop := k0_cond2 i = 1#1

theorem inFirst_iff : ∀ t : Fin cfg0.N, inFirst (grid0.coords t) ↔ t.val < 25 :=
  (by decide +kernel : ∀ t : Fin grid0.N, inFirst (grid0.coords t) ↔ t.val < 25)

theorem inSecond_iff : ∀ t : Fin cfg0.N, inSecond (grid0.coords t) ↔ 25 ≤ t.val :=
  (by decide +kernel : ∀ t : Fin grid0.N, inSecond (grid0.coords t) ↔ 25 ≤ t.val)

/-! ## Where the rows of a point sit in the carried buffers -/

/-- In the first sweep the column's rows of point t start at 400·t, -/
theorem off_col_first : ∀ t : Fin cfg0.N, t.val < 25 → k0_off1 (grid0.coords t) = ![400 * t.val, 0] :=
  (by decide +kernel : ∀ t : Fin grid0.N, t.val < 25 → k0_off1 (grid0.coords t) = ![400 * t.val, 0])
/-- and so do the matrix's. -/
theorem off_mat_first : ∀ t : Fin cfg0.N, t.val < 25 → k0_off2 (grid0.coords t) = ![400 * t.val, 0] :=
  (by decide +kernel : ∀ t : Fin grid0.N, t.val < 25 → k0_off2 (grid0.coords t) = ![400 * t.val, 0])
/-- In the second sweep point t reads the column's rows from 400·(t − 25). -/
theorem off_col_second : ∀ t : Fin cfg0.N, 25 ≤ t.val → k0_off3 (grid0.coords t) = ![400 * (t.val - 25), 0] :=
  (by decide +kernel : ∀ t : Fin grid0.N, 25 ≤ t.val → k0_off3 (grid0.coords t) = ![400 * (t.val - 25), 0])

/-! ## Where the windows are live -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- The output window is idle through the first sweep, -/
theorem idle_6_first : ∀ t : Fin cfg0.N, ¬inSecond (grid0.coords t) → cfg0.idle 6 (grid0.coords t) = true := by decide +kernel
/-- is not written back there, -/
theorem noFlush_6_first : ∀ t : Fin cfg0.N, ¬inSecond (grid0.coords t) → (cfg0.win 6).flush t = false := by decide +kernel
/-- and is live through the second, -/
theorem live_6_second : ∀ t : Fin cfg0.N, inSecond (grid0.coords t) → cfg0.idle 6 (grid0.coords t) = false := by decide +kernel
/-- where every point writes its block back, to rows 400·(t − 25) … of the result. -/
theorem flush_6_iff : ∀ t : Fin cfg0.N, (cfg0.win 6).flush t = true ↔ 25 ≤ t.val :=
  (by decide +kernel : ∀ t : Fin grid0.N, win0_6.flush t = true ↔ 25 ≤ t.val)

/-! ## The memrefs the pipeline calls the body with -/

abbrev stg0 (t : Fin cfg0.N) : Memref sig .tc .vmem S400x10000 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S10000x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S128x256 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x256 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S256x128 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x128 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S400x128 .f32 := win0_6.stage (cfg0.slots t 6)
abbrev hstg6 (t : Fin cfg0.N) : (stg6 t).IsWhole := hstage0_6 ((cfg0.slots t 6).cast nbuf0_6)
/-- The carried matrix (the projected hidden layer, 10000 × 128) -/
abbrev keepMat : Memref sig .tc .vmem S10000x128 .f32 := Memref.whole cc0_scratch0
/-- and the carried column (the adjacency's row sums, 10000 × 1). -/
abbrev keepCol : Memref sig .tc .vmem S10000x1 .f32 := Memref.whole cc0_scratch1
/-- One staging buffer of the output window, through which its contents are stated. -/
abbrev outView : View sig .tc .vmem S400x128 .f32 := (Memref.whole cc0_stg6_0 : Memref sig .tc .vmem S400x128 .f32).view

/-- What the launch hands the region besides the windows: the two carried buffers at some contents and the
    generator register at some state. -/
theorem launched_eq (c : Dev nD) :
    (Pipeline.ΦA spec0 c : sProp 𝕄)
      = iprop(iprop((∃ d, owns (c : Thread nD τ) keepMat fullShare d) ∗ (∃ d, owns (c : Thread nD τ) keepCol fullShare d)) ∗ (∃ r, prngReg c r)) := by
  unfold Pipeline.ΦA; rw [scopedRest0_eq]; simp only [keepMat, keepCol, owns_whole]; try rfl

end Cert.Kernel.Sweeps

end
-- ==== Proof.SweepsBits.FirstSweep.lean ====
/-
  The body at a point of the first sweep, run once on arbitrary whole memrefs: from the six input blocks at
  their contents, the output block at any contents and the two carried buffers at any contents, it ends with the
  inputs and the output block as they were and each carried buffer with one more rectangle written over what it
  held — the strip's row sums into the column, the strip's projected hidden rows into the matrix. The written
  pieces are found by running the body; nothing of its arithmetic is restated here.
-/
import proofs.«152062_g74156905332815_cont_9to1_m_764_11_alg».proof.Proof.SweepsBits.Setting

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces a first-sweep point writes into the carried matrix and the carried column (last store first), with
    the body's triple: whatever the output block (`xi6`) and the carried buffers (`xm`, `xc`) hold, the body runs to a
    state with the inputs and the output block unchanged and the pieces written over `xm` and `xc`. -/
noncomputable def firstRun (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x1 .f32) (harg9 : arg9.IsWhole) (hc0 : inFirst i) (hc1 : ¬inSecond i)
    (x0 : Vec F S400x10000 .f32) (x1 : Vec F S10000x128 .f32) (x2 : Vec F S128x256 .f32) (x3 : Vec F S1x256 .f32) (x4 : Vec F S256x128 .f32) (x5 : Vec F S1x128 .f32) :
    Σ' (LM : List (View.Piece (Elt F) S10000x128 .f32)), { LC : List (View.Piece (Elt F) S10000x1 .f32) //
      ∀ (xi6 : Vec F S400x128 .f32) (xm : Vec F S10000x128 .f32) (xc : Vec F S10000x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xm ∗ owns (c : Thread nD τ) arg9 fullShare xc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (arg8.view.loc (c : Thread nD τ) ↦[arg8.view.set]{fullShare} arg8.view.writes (Elt F) (harg8.unread xm) LM) ∗ (arg9.view.loc (c : Thread nD τ) ↦[arg9.view.set]{fullShare} arg9.view.writes (Elt F) (harg9.unread xc) LC)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, ?_, fun xi6 xm xc E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fm, %hfm, HM⟩, ⟨%fc, %hfc, HC⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfm; obtain rfl := harg9.eq_unread hfc
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HM]; · iexact HM
    iexact HC

end Cert.Kernel.Sweeps

end
-- ==== Proof.SweepsBits.SecondSweep.lean ====
/-
  The body at a point of the second sweep, run once on arbitrary whole memrefs: from the six input blocks at
  their contents, the carried buffers at any contents whose two reads — the column's rows of this point, the
  matrix whole — are named, and the output block at any contents, it ends with the inputs and the carried
  buffers as they were and the output block written whole. The written piece is found by running the body.
-/
import proofs.«152062_g74156905332815_cont_9to1_m_764_11_alg».proof.Proof.SweepsBits.Setting

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The piece a second-sweep point writes into the output block, with the body's triple: the carried buffers are
    at ANY contents (`xm`, `xc`) whose reads by this point are `pm` (the matrix, whole) and `pc` (the column's rows
    of the point); the body hands them back untouched. -/
noncomputable def secondRun (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x1 .f32) (harg9 : arg9.IsWhole) (hc0 : ¬inFirst i) (hc1 : inSecond i)
    (x0 : Vec F S400x10000 .f32) (x1 : Vec F S10000x128 .f32) (x2 : Vec F S128x256 .f32) (x3 : Vec F S1x256 .f32) (x4 : Vec F S256x128 .f32) (x5 : Vec F S1x128 .f32) (pc : Vec F S400x1 .f32) (pm : Vec F S10000x128 .f32) :
    { L6 : List (View.Piece (Elt F) S400x128 .f32) //
      ∀ (xm : Vec F S10000x128 .f32) (xc : Vec F S10000x1 .f32)
        (hpc : View.readAt (Elt F) arg9.view (Rect.unit (s := S10000x1) (k0_off3 i) S400x1.size (k0_off3_inb i hc1)).toLoadRect (harg9.unread xc) = pc)
        (hpm : View.readAt (Elt F) arg8.view (Rect.unit (s := S10000x128) ![0, 0] S10000x128.size inb_S10000x128_S10000x128_0_0).toLoadRect (harg8.unread xm) = pm)
        (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xm ∗ owns (c : Thread nD τ) arg9 fullShare xc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xm ∗ owns (c : Thread nD τ) arg9 fullShare xc) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun xm xc hpc hpm E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fm, %hfm, HM⟩, ⟨%fc, %hfc, HC⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfm; obtain rfl := harg9.eq_unread hfc
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HM]
    · iexists _; isplitr; · ipureintro; exact harg8.read_unread _
      iexact HM
    iexists _; isplitr; · ipureintro; exact harg9.read_unread _
    iexact HC

end Cert.Kernel.Sweeps

end
-- ==== Proof.SweepsBits.Pieces.lean ====
/-
  What the two runs of the body write, piece by piece. A first-sweep point writes ONE rectangle into each carried
  buffer — whole rows, from the row the point's coordinate chooses —: the strip's row sums into the column and
  the strip's projected hidden rows into the matrix, each a function of the point's input blocks alone. A
  second-sweep point writes the output block whole: a function of its input blocks and of what it read of the
  carried buffers.
-/
import proofs.«152062_g74156905332815_cont_9to1_m_764_11_alg».proof.Proof.SweepsBits.FirstSweep
import proofs.«152062_g74156905332815_cont_9to1_m_764_11_alg».proof.Proof.SweepsBits.SecondSweep
import Idealize.ShloMosaic.Lib.Pipeline.Value

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

/-- The zero offsets of a rank-two rectangle. -/
theorem zero_off2 : (![0, 0] : Fin 2 → ℕ) = fun _ => 0 := funext fun a => by
  match a with
  | ⟨0, _⟩ => rfl
  | ⟨1, _⟩ => rfl

/-- A load of a whole buffer through the full rectangle at zero offsets reads the buffer's contents. -/
theorem read_whole {S : Shape} {e : EltTy} (a : Memref sig .tc .vmem S e) (h : a.IsWhole) {off : Fin S.rank → ℕ}
    (hz : off = fun _ => 0) (inb : ∀ d, off d + S.size d ≤ S.size d) (x : Vec F S e) :
    View.readAt (Elt F) a.view (Rect.unit off S.size inb).toLoadRect (h.unread x) = x := by
  rw [View.readAt_eq_ld, h.read_unread, View.ld_unit_zero hz]

set_option maxRecDepth 65536 in
/-- The first sweep's piece for the carried matrix: rows `k0_off2 i …` receive the projected hidden rows of the strip. -/
theorem firstRun_mat (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x1 .f32) (harg9 : arg9.IsWhole) (hc0 : inFirst i) (hc1 : ¬inSecond i) (x0 : Vec F S400x10000 .f32) (x1 : Vec F S10000x128 .f32) (x2 : Vec F S128x256 .f32) (x3 : Vec F S1x256 .f32) (x4 : Vec F S256x128 .f32) (x5 : Vec F S1x128 .f32) :
    (firstRun c i arg1 harg1 arg2 harg2 arg3 harg3 arg4 harg4 arg5 harg5 arg6 harg6 arg7 harg7 arg8 harg8 arg9 harg9 hc0 hc1 x0 x1 x2 x3 x4 x5).1
      = [⟨Rect.unit (s := S10000x128) (k0_off2 i) S400x128.size (k0_off2_inb i hc0), k0_pay3 x0 x1 x2 x3 x4⟩] := by
  unfold firstRun
  dsimp only
  rw [read_whole arg1 harg1 zero_off2, read_whole arg2 harg2 zero_off2, read_whole arg3 harg3 zero_off2, read_whole arg4 harg4 zero_off2, read_whole arg5 harg5 zero_off2]

set_option maxRecDepth 65536 in
/-- The first sweep's piece for the carried column: rows `k0_off1 i …` receive the strip's row sums. -/
theorem firstRun_col (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x1 .f32) (harg9 : arg9.IsWhole) (hc0 : inFirst i) (hc1 : ¬inSecond i) (x0 : Vec F S400x10000 .f32) (x1 : Vec F S10000x128 .f32) (x2 : Vec F S128x256 .f32) (x3 : Vec F S1x256 .f32) (x4 : Vec F S256x128 .f32) (x5 : Vec F S1x128 .f32) :
    (firstRun c i arg1 harg1 arg2 harg2 arg3 harg3 arg4 harg4 arg5 harg5 arg6 harg6 arg7 harg7 arg8 harg8 arg9 harg9 hc0 hc1 x0 x1 x2 x3 x4 x5).2.1
      = [⟨Rect.unit (s := S10000x1) (k0_off1 i) S400x1.size (k0_off1_inb i hc0), k0_pay2 x0⟩] := by
  unfold firstRun
  dsimp only
  rw [read_whole arg1 harg1 zero_off2]

set_option maxRecDepth 65536 in
/-- The second sweep's piece for the output block: the whole block receives the normalised rows. -/
theorem secondRun_out (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x1 .f32) (harg9 : arg9.IsWhole) (hc0 : ¬inFirst i) (hc1 : inSecond i) (x0 : Vec F S400x10000 .f32) (x1 : Vec F S10000x128 .f32) (x2 : Vec F S128x256 .f32) (x3 : Vec F S1x256 .f32) (x4 : Vec F S256x128 .f32) (x5 : Vec F S1x128 .f32)
    (pc : Vec F S400x1 .f32) (pm : Vec F S10000x128 .f32) :
    (secondRun c i arg1 harg1 arg2 harg2 arg3 harg3 arg4 harg4 arg5 harg5 arg6 harg6 arg7 harg7 arg8 harg8 arg9 harg9 hc0 hc1 x0 x1 x2 x3 x4 x5 pc pm).1
      = [⟨Rect.unit (s := S400x128) ![0, 0] S400x128.size inb_S400x128_S400x128_0_0, k0_pay4 x0 pc pm x5⟩] := by
  unfold secondRun
  dsimp only
  rw [read_whole arg1 harg1 zero_off2, read_whole arg6 harg6 zero_off2]

end Cert.Kernel.Sweeps

end
-- ==== Proof.SweepsBits.Carried.lean ====
/-
  What the kernel carries from point to point, and the proof data of its pipeline.

  The carried matrix and column are filled strip by strip through the first sweep: after point t < 25 their rows
  below 400·(t + 1) hold the projected hidden rows and the row sums of the strips 0 … t — each a function of that
  strip's input blocks alone (`matSpec`, `colSpec`) — and the rows above hold whatever they held. From point 25
  on both are complete, and stay. A second-sweep point reads the complete matrix and its own rows of the column
  and leaves in the output block the normalised rows `outAt`. The invariant (`kept`) says exactly this of the
  rows already filled, whatever the two buffers held when the region was entered; it is what the body obligation
  carries from each point to the next.
-/
import proofs.«152062_g74156905332815_cont_9to1_m_764_11_alg».proof.Proof.SweepsBits.Pieces
import Idealize.ShloMosaic.Lib.WritesUnit
import Idealize.ShloMosaic.Lib.ValueIdx

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried buffers as functions of the arguments -/

/-- Strip `s` of the first sweep as a grid point. -/
def firstPt (s : ℕ) (h : s < 25) : Fin cfg0.N :=
  ⟨s, lt_of_lt_of_eq (Nat.lt_of_lt_of_le h (by decide : 25 ≤ 50)) (show (50 : ℕ) = cfg0.N from N_0.symm)⟩

/-- A row of a 10000-row buffer lies in one of the 25 strips. -/
theorem strip_lt (r : ℕ) (h : r < 10000) : r / 400 < 25 := by omega

/-- The complete carried matrix: row r holds row r % 400 of what strip r / 400 projects. -/
def matSpec (c : Dev nD) : Vec F S10000x128 .f32 := fun y =>
  k0_pay3 (iblk m c 0 (firstPt ((y 0).val / 400) (strip_lt _ (y 0).isLt))) (iblk m c 1 (firstPt ((y 0).val / 400) (strip_lt _ (y 0).isLt)))
    (iblk m c 2 (firstPt ((y 0).val / 400) (strip_lt _ (y 0).isLt))) (iblk m c 3 (firstPt ((y 0).val / 400) (strip_lt _ (y 0).isLt)))
    (iblk m c 4 (firstPt ((y 0).val / 400) (strip_lt _ (y 0).isLt)))
    (ValueIdx.ix2 (⟨(y 0).val % 400, Nat.mod_lt _ (by decide)⟩ : Fin 400) (⟨(y 1).val, (y 1).isLt⟩ : Fin 128))

/-- The complete carried column: row r holds the sum of row r % 400 of strip r / 400. -/
def colSpec (c : Dev nD) : Vec F S10000x1 .f32 := fun y =>
  k0_pay2 (iblk m c 0 (firstPt ((y 0).val / 400) (strip_lt _ (y 0).isLt)))
    (ValueIdx.ix2 (⟨(y 0).val % 400, Nat.mod_lt _ (by decide)⟩ : Fin 400) (⟨(y 1).val, (y 1).isLt⟩ : Fin 1))

/-- The rows of the complete column a second-sweep point reads. -/
def colRows (c : Dev nD) (t : Fin cfg0.N) (h : 25 ≤ t.val) : Vec F S400x1 .f32 :=
  View.readAt (Elt F) keepCol.view (Rect.unit (s := S10000x1) (k0_off3 (grid0.coords t)) S400x1.size (k0_off3_inb (grid0.coords t) ((inSecond_iff t).mpr h))).toLoadRect
    ((Memref.isWhole_whole cc0_scratch1).unread (colSpec m c))

/-- What a second-sweep point leaves in the output block (nothing is said of the first sweep, where the block is
    neither stored nor written back). -/
def outAt (c : Dev nD) (t : Fin cfg0.N) : Vec F S400x128 .f32 :=
  if h : 25 ≤ t.val then k0_pay4 (iblk m c 0 t) (colRows m c t h) (matSpec m c) (iblk m c 5 t)
  else outView.read (Elt F) outView.junk

/-- The rows filled before point n (all of them from point 25 on) hold the complete buffers' rows. -/
def kept (c : Dev nD) (n : ℕ) (M : Vec F S10000x128 .f32) (C : Vec F S10000x1 .f32) : Prop :=
  (∀ y : S10000x128.Idx, (y 0).val < 400 * min n 25 → M y = matSpec m c y)
    ∧ (∀ y : S10000x1.Idx, (y 0).val < 400 * min n 25 → C y = colSpec m c y)

/-- Before the first point nothing is filled. -/
theorem kept_zero (c : Dev nD) (M : Vec F S10000x128 .f32) (C : Vec F S10000x1 .f32) : kept m c 0 M C :=
  ⟨fun y h => absurd h (by simp), fun y h => absurd h (by simp)⟩

/-- From point 25 on the buffers are the complete ones. -/
theorem kept_full (c : Dev nD) (n : ℕ) (hn : 25 ≤ n) (M : Vec F S10000x128 .f32) (C : Vec F S10000x1 .f32) (h : kept m c n M C) :
    M = matSpec m c ∧ C = colSpec m c := by
  have e : min n 25 = 25 := Nat.min_eq_right hn
  refine ⟨funext fun y => h.1 y ?_, funext fun y => h.2 y ?_⟩
  · rw [e]; exact (y 0).isLt
  · rw [e]; exact (y 0).isLt

/-- The second sweep changes nothing. -/
theorem kept_succ_second (c : Dev nD) (n : ℕ) (hn : 25 ≤ n) (M : Vec F S10000x128 .f32) (C : Vec F S10000x1 .f32) (h : kept m c n M C) :
    kept m c (n + 1) M C := by
  have e : min n 25 = 25 := Nat.min_eq_right hn
  have e' : min (n + 1) 25 = 25 := Nat.min_eq_right (by omega)
  unfold kept at h ⊢; rw [e'] ; rw [e] at h; exact h

/-- A first-sweep point fills its strip: writing the point's two pieces over buffers whose earlier strips are
    filled leaves buffers whose strips up to and including the point's are filled. -/
theorem kept_succ_first (c : Dev nD) (t : Fin cfg0.N) (ht : t.val < 25) (M : Vec F S10000x128 .f32) (C : Vec F S10000x1 .f32)
    (h : kept m c t.val M C) :
    kept m c (t.val + 1)
      (keepMat.view.read (Elt F) (keepMat.view.writes (Elt F) ((Memref.isWhole_whole cc0_scratch0).unread M)
        [⟨Rect.unit (s := S10000x128) (k0_off2 (grid0.coords t)) S400x128.size (k0_off2_inb (grid0.coords t) ((inFirst_iff t).mpr ht)),
          k0_pay3 (iblk m c 0 t) (iblk m c 1 t) (iblk m c 2 t) (iblk m c 3 t) (iblk m c 4 t)⟩]))
      (keepCol.view.read (Elt F) (keepCol.view.writes (Elt F) ((Memref.isWhole_whole cc0_scratch1).unread C)
        [⟨Rect.unit (s := S10000x1) (k0_off1 (grid0.coords t)) S400x1.size (k0_off1_inb (grid0.coords t) ((inFirst_iff t).mpr ht)),
          k0_pay2 (iblk m c 0 t)⟩])) := by
  have e : min t.val 25 = t.val := Nat.min_eq_left (le_of_lt ht)
  have e' : min (t.val + 1) 25 = t.val + 1 := Nat.min_eq_left ht
  have hpt : ∀ (r : ℕ) (hr : r < 10000), 400 * t.val ≤ r → r < 400 * t.val + 400 → firstPt (r / 400) (strip_lt r hr) = t := fun r hr h1 h2 =>
    Fin.ext (by show r / 400 = t.val; omega)
  unfold kept at h ⊢
  rw [e] at h; rw [e']
  refine ⟨fun y hy => ?_, fun y hy => ?_⟩
  · rw [View.read_writes_cons_rows (off := k0_off2 (grid0.coords t)) (size := S400x128.size) (o := 400 * t.val) (W := 400) keepMat.view _ (k0_off2_inb (grid0.coords t) ((inFirst_iff t).mpr ht)) _ [] y (off_mat_first t ht) rfl rfl]
    by_cases hin : 400 * t.val ≤ (y 0).val ∧ (y 0).val < 400 * t.val + 400
    · rw [dif_pos hin]
      unfold matSpec
      rw [hpt _ (y 0).isLt hin.1 hin.2]
      refine congrArg _ (funext fun a => Fin.ext ?_)
      match a with
      | ⟨0, _⟩ => show (y 0).val - 400 * t.val = (y 0).val % 400; omega
      | ⟨1, _⟩ => show (y 1).val - 0 = (y 1).val; omega
    · rw [dif_neg hin, View.writes_nil, Memref.IsWhole.read_unread]
      exact h.1 y (by omega)
  · rw [View.read_writes_cons_rows (off := k0_off1 (grid0.coords t)) (size := S400x1.size) (o := 400 * t.val) (W := 400) keepCol.view _ (k0_off1_inb (grid0.coords t) ((inFirst_iff t).mpr ht)) _ [] y (off_col_first t ht) rfl rfl]
    by_cases hin : 400 * t.val ≤ (y 0).val ∧ (y 0).val < 400 * t.val + 400
    · rw [dif_pos hin]
      unfold colSpec
      rw [hpt _ (y 0).isLt hin.1 hin.2]
      refine congrArg _ (funext fun a => Fin.ext ?_)
      match a with
      | ⟨0, _⟩ => show (y 0).val - 400 * t.val = (y 0).val % 400; omega
      | ⟨1, _⟩ => show (y 1).val - 0 = (y 1).val; omega
    · rw [dif_neg hin, View.writes_nil, Memref.IsWhole.read_unread]
      exact h.2 y (by omega)

end Cert.Kernel.Sweeps

end
-- ==== Proof.SweepsBits.Obligation.lean ====
/-
  The pipeline's proof data and the body obligation, the frame run, and the frame.

  After the body at point t each input window's staging buffer holds the window's block, as it did before; the
  output window's holds `outAt` at a second-sweep point and is handed back untouched at a first-sweep point,
  where it is idle and not written back. Between points the region's invariant owns the two carried buffers at
  contents whose filled rows are the complete buffers' (`kept`), and the generator register at some state: the
  launch's own invariant gives it before the first point (nothing is filled yet) and gets it back after the last.
  The body obligation at a point is the run of its sweep: a first-sweep point fills one more strip
  (`kept_step_first`), a second-sweep point finds both buffers complete, reads them, and changes nothing.
-/
import proofs.«152062_g74156905332815_cont_9to1_m_764_11_alg».proof.Proof.SweepsBits.Carried

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A first-sweep point's own pieces, written over buffers whose earlier strips are filled, fill its strip. -/
theorem kept_step_first (c : Dev nD) (t : Fin cfg0.N) (ht : t.val < 25) (hs : ¬inSecond (grid0.coords t))
    (M : Vec F S10000x128 .f32) (C : Vec F S10000x1 .f32) (h : kept m c t.val M C) :
    kept m c (t.val + 1)
      (keepMat.view.read (Elt F) (keepMat.view.writes (Elt F) ((Memref.isWhole_whole cc0_scratch0).unread M)
        (firstRun c (grid0.coords t) (stg0 t) (hstg0 t) (stg1 t) (hstg1 t) (stg2 t) (hstg2 t) (stg3 t) (hstg3 t) (stg4 t) (hstg4 t) (stg5 t) (hstg5 t) (stg6 t) (hstg6 t) keepMat (Memref.isWhole_whole _) keepCol (Memref.isWhole_whole _) ((inFirst_iff t).mpr ht) hs (iblk m c 0 t) (iblk m c 1 t) (iblk m c 2 t) (iblk m c 3 t) (iblk m c 4 t) (iblk m c 5 t)).1))
      (keepCol.view.read (Elt F) (keepCol.view.writes (Elt F) ((Memref.isWhole_whole cc0_scratch1).unread C)
        (firstRun c (grid0.coords t) (stg0 t) (hstg0 t) (stg1 t) (hstg1 t) (stg2 t) (hstg2 t) (stg3 t) (hstg3 t) (stg4 t) (hstg4 t) (stg5 t) (hstg5 t) (stg6 t) (hstg6 t) keepMat (Memref.isWhole_whole _) keepCol (Memref.isWhole_whole _) ((inFirst_iff t).mpr ht) hs (iblk m c 0 t) (iblk m c 1 t) (iblk m c 2 t) (iblk m c 3 t) (iblk m c 4 t) (iblk m c 5 t)).2.1)) := by
  have key : ∀ (LM : List (View.Piece (Elt F) S10000x128 .f32)) (LC : List (View.Piece (Elt F) S10000x1 .f32)),
      LM = [⟨Rect.unit (s := S10000x128) (k0_off2 (grid0.coords t)) S400x128.size (k0_off2_inb (grid0.coords t) ((inFirst_iff t).mpr ht)),
          k0_pay3 (iblk m c 0 t) (iblk m c 1 t) (iblk m c 2 t) (iblk m c 3 t) (iblk m c 4 t)⟩] →
      LC = [⟨Rect.unit (s := S10000x1) (k0_off1 (grid0.coords t)) S400x1.size (k0_off1_inb (grid0.coords t) ((inFirst_iff t).mpr ht)),
          k0_pay2 (iblk m c 0 t)⟩] →
      kept m c (t.val + 1)
        (keepMat.view.read (Elt F) (keepMat.view.writes (Elt F) ((Memref.isWhole_whole cc0_scratch0).unread M) LM))
        (keepCol.view.read (Elt F) (keepCol.view.writes (Elt F) ((Memref.isWhole_whole cc0_scratch1).unread C) LC)) := by
    intro LM LC h1 h2
    subst h1; subst h2
    exact kept_succ_first m c t ht M C h
  exact key _ _ (firstRun_mat _ _ _ _ _ _ _ _ _ _ _ _ _ _ _ _ _ _ _ _ _ _ _ _ _ _ _ _) (firstRun_col _ _ _ _ _ _ _ _ _ _ _ _ _ _ _ _ _ _ _ _ _ _ _ _ _ _ _ _)

/-- One store through the full rectangle at zero offsets leaves its payload. -/
theorem read_store_whole {S : Shape} {e : EltTy} (v : View sig .tc .vmem S e) (f : v.ty.Contents (Elt F)) {off : Fin S.rank → ℕ}
    (hz : off = fun _ => 0) (inb : ∀ d, off d + S.size d ≤ S.size d) (w : (Rect.unit off S.size inb).shape.Idx → Elt F e) :
    v.read (Elt F) (v.writes (Elt F) f [(⟨Rect.unit off S.size inb, w⟩ : View.Piece (Elt F) S e)]) = w :=
  funext fun y => View.read_writes_cons_unit_of_mem v f inb w [] y y hz fun a => (Nat.zero_add _).symm

/-! ## The proof data -/

/-- The region's invariant before point n. -/
def PhiK (c : Dev nD) (n : ℕ) : sProp 𝕄 :=
  iprop((∃ M C, ⌜kept m c n M C⌝ ∗ owns (c : Thread nD τ) keepMat fullShare M ∗ owns (c : Thread nD τ) keepCol fullShare C) ∗ (∃ r, prngReg c r))

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiK m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem Phi_castSucc (c : Dev nD) (t : Fin cfg0.N) : (dats m 0 c).Φ t.castSucc = PhiK m c t.val := by
  dsimp only [dats]; simp only [Fin.coe_castSucc]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiK m c (t.val + 1) from rfl, Phi_castSucc m c t]
  unfold PhiK
  have hN : t.val < 50 := lt_of_lt_of_eq t.isLt (show cfg0.N = 50 from N_0)
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  rw [show (dats m 0 c).leavesExact 5 t = owns (c : Thread nD τ) (stg5 t) fullShare ((dats m 0 c).after 5 t) from by
    unfold Dat.leavesExact; rw [live_5 t], after_5]
  by_cases h0 : t.val < 25
  · have hs : ¬inSecond (grid0.coords t) := fun h => absurd ((inSecond_iff t).mp h) (by omega)
    rw [Dat.leavesExact_idle (dats m 0 c) 6 t (idle_6_first t hs) (noFlush_6_first t hs)]
    iintro ⟨⟨⟨%M, %C, %hk, HM, HC⟩, Hg⟩, Ho, ⟨%d0, H0⟩, ⟨%d1, H1⟩, ⟨%d2, H2⟩, ⟨%d3, H3⟩, ⟨%d4, H4⟩, ⟨%d5, H5⟩, ⟨%d6, H6⟩⟩
    iapply ((firstRun c (grid0.coords t) _ _ _ _ _ _ _ _ _ _ _ _ _ _ _ _ _ _ ((inFirst_iff t).mpr h0) hs (iblk m c 0 t) (iblk m c 1 t) (iblk m c 2 t) (iblk m c 3 t) (iblk m c 4 t) (iblk m c 5 t)).2.2 _ M C Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HM]; · iexact HM
    isplitl [HC]; · iexact HC
    iintro ⟨H0, H1, H2, H3, H4, H5, H6, HM, HC⟩
    isplitl [HM HC Hg]
    · isplitl [HM HC]
      · iexists _, _
        isplitr; · ipureintro; exact kept_step_first m c t h0 hs M C hk
        isplitl [HM]
        · unfold owns; iexists _; isplitr
          swap; · iexact HM
          ipureintro; rfl
        unfold owns; iexists _; isplitr
        swap; · iexact HC
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : 25 ≤ t.val := by omega
    have hf : ¬inFirst (grid0.coords t) := fun h => h0 ((inFirst_iff t).mp h)
    rw [show (dats m 0 c).leavesExact 6 t = owns (c : Thread nD τ) (stg6 t) fullShare ((dats m 0 c).after 6 t) from by
      unfold Dat.leavesExact; rw [live_6_second t ((inSecond_iff t).mpr h1)], after_6]
    iintro ⟨⟨⟨%M, %C, %hk, HM, HC⟩, Hg⟩, Ho, ⟨%d0, H0⟩, ⟨%d1, H1⟩, ⟨%d2, H2⟩, ⟨%d3, H3⟩, ⟨%d4, H4⟩, ⟨%d5, H5⟩, ⟨%d6, H6⟩⟩
    obtain ⟨rfl, rfl⟩ := kept_full m c t.val h1 M C hk
    iapply ((secondRun c (grid0.coords t) _ _ _ _ _ _ _ _ _ _ _ _ _ _ _ _ _ _ hf ((inSecond_iff t).mpr h1) (iblk m c 0 t) (iblk m c 1 t) (iblk m c 2 t) (iblk m c 3 t) (iblk m c 4 t) (iblk m c 5 t) (colRows m c t h1) (matSpec m c)).2 (matSpec m c) (colSpec m c) rfl (read_whole keepMat (Memref.isWhole_whole _) zero_off2 _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HM]; · iexact HM
    isplitl [HC]; · iexact HC
    iintro ⟨H0, H1, H2, H3, H4, H5, ⟨%f6, H6⟩, HM, HC⟩
    isplitl [HM HC Hg]
    · isplitl [HM HC]
      · iexists _, _
        isplitr; · ipureintro; exact kept_succ_second m c t.val h1 _ _ hk
        isplitl [HM]; · iexact HM
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    rw [secondRun_out]
    unfold outAt; rw [dif_pos h1]
    exact read_store_whole _ _ zero_off2 _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is filled yet. -/
theorem hin (c : Dev nD) : Pipeline.ΦA spec0 c ⊢ (dats m 0 c).Φ 0 := by
  rw [show (dats m 0 c).Φ 0 = PhiK m c 0 from rfl, launched_eq]
  unfold PhiK
  iintro ⟨⟨⟨%dM, HM⟩, ⟨%dC, HC⟩⟩, Hg⟩
  isplitl [HM HC]
  · iexists dM, dC
    isplitr; · ipureintro; exact kept_zero m c dM dC
    isplitl [HM]; · iexact HM
    iexact HC
  iexact Hg

/-- After the last point the invariant gives the launch's back: what the carried buffers hold is forgotten. -/
theorem hout (c : Dev nD) : (dats m 0 c).Φ (Fin.last cfg0.N) ⊢ Pipeline.ΦA spec0 c := by
  rw [show (dats m 0 c).Φ (Fin.last cfg0.N) = PhiK m c (Fin.last cfg0.N).val from rfl, launched_eq]
  unfold PhiK
  iintro ⟨⟨%M, %C, -, HM, HC⟩, Hg⟩
  isplitl [HM HC]
  · isplitl [HM]
    · iexists _; iexact HM
    iexists _; iexact HC
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Sweeps

end
-- ==== Proof.SweepsIdeal.Setting.lean ====
/-
  The two sweeps of the fused kernel over its grid of 50 points, and the names the body's run is stated over.
  Points 0 … 24 are the FIRST sweep: point t streams strip t of the adjacency (rows 400·t … 400·t + 399), stores
  the strip's row sums into rows 400·t … of the carried column and the projected hidden rows into rows 400·t … of
  the carried matrix, and leaves the output block untouched. Points 25 … 49 are the SECOND sweep: point t streams
  strip t − 25 again, reads the carried matrix whole and the carried column's rows 400·(t − 25) …, and stores the
  normalised output rows into the output block, which the pipeline writes back after each such point.
  Everything here is decided over the 50 points by evaluation.
-/
import proofs.«152062_g74156905332815_cont_9to1_m_764_11_alg».proof.Proof.Gen.KernelIdeal.Frame
import proofs.«152062_g74156905332815_cont_9to1_m_764_11_alg».proof.Proof.Gen.KernelIdeal.Skeleton

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## Which sweep a point is in -/

/-- The body's first branch is taken: the point is in the first sweep. -/
abbrev inFirst (i : grid0.Coords) : Prop := k0_cond1 i = 1#1
/-- The body's second branch is taken: the point is in the second sweep. -/
abbrev inSecond (i : grid0.Coords) : Prop := k0_cond2 i = 1#1

theorem inFirst_iff : ∀ t : Fin cfg0.N, inFirst (grid0.coords t) ↔ t.val < 25 :=
  (by decide +kernel : ∀ t : Fin grid0.N, inFirst (grid0.coords t) ↔ t.val < 25)

theorem inSecond_iff : ∀ t : Fin cfg0.N, inSecond (grid0.coords t) ↔ 25 ≤ t.val :=
  (by decide +kernel : ∀ t : Fin grid0.N, inSecond (grid0.coords t) ↔ 25 ≤ t.val)

/-! ## Where the rows of a point sit in the carried buffers -/

/-- In the first sweep the column's rows of point t start at 400·t, -/
theorem off_col_first : ∀ t : Fin cfg0.N, t.val < 25 → k0_off1 (grid0.coords t) = ![400 * t.val, 0] :=
  (by decide +kernel : ∀ t : Fin grid0.N, t.val < 25 → k0_off1 (grid0.coords t) = ![400 * t.val, 0])
/-- and so do the matrix's. -/
theorem off_mat_first : ∀ t : Fin cfg0.N, t.val < 25 → k0_off2 (grid0.coords t) = ![400 * t.val, 0] :=
  (by decide +kernel : ∀ t : Fin grid0.N, t.val < 25 → k0_off2 (grid0.coords t) = ![400 * t.val, 0])
/-- In the second sweep point t reads the column's rows from 400·(t − 25). -/
theorem off_col_second : ∀ t : Fin cfg0.N, 25 ≤ t.val → k0_off3 (grid0.coords t) = ![400 * (t.val - 25), 0] :=
  (by decide +kernel : ∀ t : Fin grid0.N, 25 ≤ t.val → k0_off3 (grid0.coords t) = ![400 * (t.val - 25), 0])

/-! ## Where the windows are live -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- The output window is idle through the first sweep, -/
theorem idle_6_first : ∀ t : Fin cfg0.N, ¬inSecond (grid0.coords t) → cfg0.idle 6 (grid0.coords t) = true := by decide +kernel
/-- is not written back there, -/
theorem noFlush_6_first : ∀ t : Fin cfg0.N, ¬inSecond (grid0.coords t) → (cfg0.win 6).flush t = false := by decide +kernel
/-- and is live through the second, -/
theorem live_6_second : ∀ t : Fin cfg0.N, inSecond (grid0.coords t) → cfg0.idle 6 (grid0.coords t) = false := by decide +kernel
/-- where every point writes its block back, to rows 400·(t − 25) … of the result. -/
theorem flush_6_iff : ∀ t : Fin cfg0.N, (cfg0.win 6).flush t = true ↔ 25 ≤ t.val :=
  (by decide +kernel : ∀ t : Fin grid0.N, win0_6.flush t = true ↔ 25 ≤ t.val)

/-! ## The memrefs the pipeline calls the body with -/

abbrev stg0 (t : Fin cfg0.N) : Memref sig .tc .vmem S400x10000 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S10000x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S128x256 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x256 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S256x128 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x128 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S400x128 .f32 := win0_6.stage (cfg0.slots t 6)
abbrev hstg6 (t : Fin cfg0.N) : (stg6 t).IsWhole := hstage0_6 ((cfg0.slots t 6).cast nbuf0_6)
/-- The carried matrix (the projected hidden layer, 10000 × 128) -/
abbrev keepMat : Memref sig .tc .vmem S10000x128 .f32 := Memref.whole cc0_scratch0
/-- and the carried column (the adjacency's row sums, 10000 × 1). -/
abbrev keepCol : Memref sig .tc .vmem S10000x1 .f32 := Memref.whole cc0_scratch1
/-- One staging buffer of the output window, through which its contents are stated. -/
abbrev outView : View sig .tc .vmem S400x128 .f32 := (Memref.whole cc0_stg6_0 : Memref sig .tc .vmem S400x128 .f32).view

/-- What the launch hands the region besides the windows: the two carried buffers at some contents and the
    generator register at some state. -/
theorem launched_eq (c : Dev nD) :
    (Pipeline.ΦA spec0 c : sProp 𝕄)
      = iprop(iprop((∃ d, owns (c : Thread nD τ) keepMat fullShare d) ∗ (∃ d, owns (c : Thread nD τ) keepCol fullShare d)) ∗ (∃ r, prngReg c r)) := by
  unfold Pipeline.ΦA; rw [scopedRest0_eq]; simp only [keepMat, keepCol, owns_whole]; try rfl

end Cert.KernelIdeal.Sweeps

end
-- ==== Proof.SweepsIdeal.FirstSweep.lean ====
/-
  The body at a point of the first sweep, run once on arbitrary whole memrefs: from the six input blocks at
  their contents, the output block at any contents and the two carried buffers at any contents, it ends with the
  inputs and the output block as they were and each carried buffer with one more rectangle written over what it
  held — the strip's row sums into the column, the strip's projected hidden rows into the matrix. The written
  pieces are found by running the body; nothing of its arithmetic is restated here.
-/
import proofs.«152062_g74156905332815_cont_9to1_m_764_11_alg».proof.Proof.SweepsIdeal.Setting

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces a first-sweep point writes into the carried matrix and the carried column (last store first), with
    the body's triple: whatever the output block (`xi6`) and the carried buffers (`xm`, `xc`) hold, the body runs to a
    state with the inputs and the output block unchanged and the pieces written over `xm` and `xc`. -/
noncomputable def firstRun (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x1 .f32) (harg9 : arg9.IsWhole) (hc0 : inFirst i) (hc1 : ¬inSecond i)
    (x0 : Vec F S400x10000 .f32) (x1 : Vec F S10000x128 .f32) (x2 : Vec F S128x256 .f32) (x3 : Vec F S1x256 .f32) (x4 : Vec F S256x128 .f32) (x5 : Vec F S1x128 .f32) :
    Σ' (LM : List (View.Piece (Elt F) S10000x128 .f32)), { LC : List (View.Piece (Elt F) S10000x1 .f32) //
      ∀ (xi6 : Vec F S400x128 .f32) (xm : Vec F S10000x128 .f32) (xc : Vec F S10000x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xm ∗ owns (c : Thread nD τ) arg9 fullShare xc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (arg8.view.loc (c : Thread nD τ) ↦[arg8.view.set]{fullShare} arg8.view.writes (Elt F) (harg8.unread xm) LM) ∗ (arg9.view.loc (c : Thread nD τ) ↦[arg9.view.set]{fullShare} arg9.view.writes (Elt F) (harg9.unread xc) LC)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, ?_, fun xi6 xm xc E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fm, %hfm, HM⟩, ⟨%fc, %hfc, HC⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfm; obtain rfl := harg9.eq_unread hfc
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HM]; · iexact HM
    iexact HC

end Cert.KernelIdeal.Sweeps

end
-- ==== Proof.SweepsIdeal.SecondSweep.lean ====
/-
  The body at a point of the second sweep, run once on arbitrary whole memrefs: from the six input blocks at
  their contents, the carried buffers at any contents whose two reads — the column's rows of this point, the
  matrix whole — are named, and the output block at any contents, it ends with the inputs and the carried
  buffers as they were and the output block written whole. The written piece is found by running the body.
-/
import proofs.«152062_g74156905332815_cont_9to1_m_764_11_alg».proof.Proof.SweepsIdeal.Setting

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The piece a second-sweep point writes into the output block, with the body's triple: the carried buffers are
    at ANY contents (`xm`, `xc`) whose reads by this point are `pm` (the matrix, whole) and `pc` (the column's rows
    of the point); the body hands them back untouched. -/
noncomputable def secondRun (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x1 .f32) (harg9 : arg9.IsWhole) (hc0 : ¬inFirst i) (hc1 : inSecond i)
    (x0 : Vec F S400x10000 .f32) (x1 : Vec F S10000x128 .f32) (x2 : Vec F S128x256 .f32) (x3 : Vec F S1x256 .f32) (x4 : Vec F S256x128 .f32) (x5 : Vec F S1x128 .f32) (pc : Vec F S400x1 .f32) (pm : Vec F S10000x128 .f32) :
    { L6 : List (View.Piece (Elt F) S400x128 .f32) //
      ∀ (xm : Vec F S10000x128 .f32) (xc : Vec F S10000x1 .f32)
        (hpc : View.readAt (Elt F) arg9.view (Rect.unit (s := S10000x1) (k0_off3 i) S400x1.size (k0_off3_inb i hc1)).toLoadRect (harg9.unread xc) = pc)
        (hpm : View.readAt (Elt F) arg8.view (Rect.unit (s := S10000x128) ![0, 0] S10000x128.size inb_S10000x128_S10000x128_0_0).toLoadRect (harg8.unread xm) = pm)
        (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xm ∗ owns (c : Thread nD τ) arg9 fullShare xc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xm ∗ owns (c : Thread nD τ) arg9 fullShare xc) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun xm xc hpc hpm E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fm, %hfm, HM⟩, ⟨%fc, %hfc, HC⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfm; obtain rfl := harg9.eq_unread hfc
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HM]
    · iexists _; isplitr; · ipureintro; exact harg8.read_unread _
      iexact HM
    iexists _; isplitr; · ipureintro; exact harg9.read_unread _
    iexact HC

end Cert.KernelIdeal.Sweeps

end
-- ==== Proof.SweepsIdeal.Pieces.lean ====
/-
  What the two runs of the body write, piece by piece. A first-sweep point writes ONE rectangle into each carried
  buffer — whole rows, from the row the point's coordinate chooses —: the strip's row sums into the column and
  the strip's projected hidden rows into the matrix, each a function of the point's input blocks alone. A
  second-sweep point writes the output block whole: a function of its input blocks and of what it read of the
  carried buffers.
-/
import proofs.«152062_g74156905332815_cont_9to1_m_764_11_alg».proof.Proof.SweepsIdeal.FirstSweep
import proofs.«152062_g74156905332815_cont_9to1_m_764_11_alg».proof.Proof.SweepsIdeal.SecondSweep
import Idealize.ShloMosaic.Lib.Pipeline.Value

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-- The zero offsets of a rank-two rectangle. -/
theorem zero_off2 : (![0, 0] : Fin 2 → ℕ) = fun _ => 0 := funext fun a => by
  match a with
  | ⟨0, _⟩ => rfl
  | ⟨1, _⟩ => rfl

/-- A load of a whole buffer through the full rectangle at zero offsets reads the buffer's contents. -/
theorem read_whole {S : Shape} {e : EltTy} (a : Memref sig .tc .vmem S e) (h : a.IsWhole) {off : Fin S.rank → ℕ}
    (hz : off = fun _ => 0) (inb : ∀ d, off d + S.size d ≤ S.size d) (x : Vec F S e) :
    View.readAt (Elt F) a.view (Rect.unit off S.size inb).toLoadRect (h.unread x) = x := by
  rw [View.readAt_eq_ld, h.read_unread, View.ld_unit_zero hz]

set_option maxRecDepth 65536 in
/-- The first sweep's piece for the carried matrix: rows `k0_off2 i …` receive the projected hidden rows of the strip. -/
theorem firstRun_mat (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x1 .f32) (harg9 : arg9.IsWhole) (hc0 : inFirst i) (hc1 : ¬inSecond i) (x0 : Vec F S400x10000 .f32) (x1 : Vec F S10000x128 .f32) (x2 : Vec F S128x256 .f32) (x3 : Vec F S1x256 .f32) (x4 : Vec F S256x128 .f32) (x5 : Vec F S1x128 .f32) :
    (firstRun c i arg1 harg1 arg2 harg2 arg3 harg3 arg4 harg4 arg5 harg5 arg6 harg6 arg7 harg7 arg8 harg8 arg9 harg9 hc0 hc1 x0 x1 x2 x3 x4 x5).1
      = [⟨Rect.unit (s := S10000x128) (k0_off2 i) S400x128.size (k0_off2_inb i hc0), k0_pay3 x0 x1 x2 x3 x4⟩] := by
  unfold firstRun
  dsimp only
  rw [read_whole arg1 harg1 zero_off2, read_whole arg2 harg2 zero_off2, read_whole arg3 harg3 zero_off2, read_whole arg4 harg4 zero_off2, read_whole arg5 harg5 zero_off2]

set_option maxRecDepth 65536 in
/-- The first sweep's piece for the carried column: rows `k0_off1 i …` receive the strip's row sums. -/
theorem firstRun_col (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x1 .f32) (harg9 : arg9.IsWhole) (hc0 : inFirst i) (hc1 : ¬inSecond i) (x0 : Vec F S400x10000 .f32) (x1 : Vec F S10000x128 .f32) (x2 : Vec F S128x256 .f32) (x3 : Vec F S1x256 .f32) (x4 : Vec F S256x128 .f32) (x5 : Vec F S1x128 .f32) :
    (firstRun c i arg1 harg1 arg2 harg2 arg3 harg3 arg4 harg4 arg5 harg5 arg6 harg6 arg7 harg7 arg8 harg8 arg9 harg9 hc0 hc1 x0 x1 x2 x3 x4 x5).2.1
      = [⟨Rect.unit (s := S10000x1) (k0_off1 i) S400x1.size (k0_off1_inb i hc0), k0_pay2 x0⟩] := by
  unfold firstRun
  dsimp only
  rw [read_whole arg1 harg1 zero_off2]

set_option maxRecDepth 65536 in
/-- The second sweep's piece for the output block: the whole block receives the normalised rows. -/
theorem secondRun_out (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x1 .f32) (harg9 : arg9.IsWhole) (hc0 : ¬inFirst i) (hc1 : inSecond i) (x0 : Vec F S400x10000 .f32) (x1 : Vec F S10000x128 .f32) (x2 : Vec F S128x256 .f32) (x3 : Vec F S1x256 .f32) (x4 : Vec F S256x128 .f32) (x5 : Vec F S1x128 .f32)
    (pc : Vec F S400x1 .f32) (pm : Vec F S10000x128 .f32) :
    (secondRun c i arg1 harg1 arg2 harg2 arg3 harg3 arg4 harg4 arg5 harg5 arg6 harg6 arg7 harg7 arg8 harg8 arg9 harg9 hc0 hc1 x0 x1 x2 x3 x4 x5 pc pm).1
      = [⟨Rect.unit (s := S400x128) ![0, 0] S400x128.size inb_S400x128_S400x128_0_0, k0_pay4 x0 pc pm x5⟩] := by
  unfold secondRun
  dsimp only
  rw [read_whole arg1 harg1 zero_off2, read_whole arg6 harg6 zero_off2]

end Cert.KernelIdeal.Sweeps

end
-- ==== Proof.SweepsIdeal.Carried.lean ====
/-
  What the kernel carries from point to point, and the proof data of its pipeline.

  The carried matrix and column are filled strip by strip through the first sweep: after point t < 25 their rows
  below 400·(t + 1) hold the projected hidden rows and the row sums of the strips 0 … t — each a function of that
  strip's input blocks alone (`matSpec`, `colSpec`) — and the rows above hold whatever they held. From point 25
  on both are complete, and stay. A second-sweep point reads the complete matrix and its own rows of the column
  and leaves in the output block the normalised rows `outAt`. The invariant (`kept`) says exactly this of the
  rows already filled, whatever the two buffers held when the region was entered; it is what the body obligation
  carries from each point to the next.
-/
import proofs.«152062_g74156905332815_cont_9to1_m_764_11_alg».proof.Proof.SweepsIdeal.Pieces
import Idealize.ShloMosaic.Lib.WritesUnit
import Idealize.ShloMosaic.Lib.ValueIdx

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried buffers as functions of the arguments -/

/-- Strip `s` of the first sweep as a grid point. -/
def firstPt (s : ℕ) (h : s < 25) : Fin cfg0.N :=
  ⟨s, lt_of_lt_of_eq (Nat.lt_of_lt_of_le h (by decide : 25 ≤ 50)) (show (50 : ℕ) = cfg0.N from N_0.symm)⟩

/-- A row of a 10000-row buffer lies in one of the 25 strips. -/
theorem strip_lt (r : ℕ) (h : r < 10000) : r / 400 < 25 := by omega

/-- The complete carried matrix: row r holds row r % 400 of what strip r / 400 projects. -/
def matSpec (c : Dev nD) : Vec F S10000x128 .f32 := fun y =>
  k0_pay3 (iblk m c 0 (firstPt ((y 0).val / 400) (strip_lt _ (y 0).isLt))) (iblk m c 1 (firstPt ((y 0).val / 400) (strip_lt _ (y 0).isLt)))
    (iblk m c 2 (firstPt ((y 0).val / 400) (strip_lt _ (y 0).isLt))) (iblk m c 3 (firstPt ((y 0).val / 400) (strip_lt _ (y 0).isLt)))
    (iblk m c 4 (firstPt ((y 0).val / 400) (strip_lt _ (y 0).isLt)))
    (ValueIdx.ix2 (⟨(y 0).val % 400, Nat.mod_lt _ (by decide)⟩ : Fin 400) (⟨(y 1).val, (y 1).isLt⟩ : Fin 128))

/-- The complete carried column: row r holds the sum of row r % 400 of strip r / 400. -/
def colSpec (c : Dev nD) : Vec F S10000x1 .f32 := fun y =>
  k0_pay2 (iblk m c 0 (firstPt ((y 0).val / 400) (strip_lt _ (y 0).isLt)))
    (ValueIdx.ix2 (⟨(y 0).val % 400, Nat.mod_lt _ (by decide)⟩ : Fin 400) (⟨(y 1).val, (y 1).isLt⟩ : Fin 1))

/-- The rows of the complete column a second-sweep point reads. -/
def colRows (c : Dev nD) (t : Fin cfg0.N) (h : 25 ≤ t.val) : Vec F S400x1 .f32 :=
  View.readAt (Elt F) keepCol.view (Rect.unit (s := S10000x1) (k0_off3 (grid0.coords t)) S400x1.size (k0_off3_inb (grid0.coords t) ((inSecond_iff t).mpr h))).toLoadRect
    ((Memref.isWhole_whole cc0_scratch1).unread (colSpec m c))

/-- What a second-sweep point leaves in the output block (nothing is said of the first sweep, where the block is
    neither stored nor written back). -/
def outAt (c : Dev nD) (t : Fin cfg0.N) : Vec F S400x128 .f32 :=
  if h : 25 ≤ t.val then k0_pay4 (iblk m c 0 t) (colRows m c t h) (matSpec m c) (iblk m c 5 t)
  else outView.read (Elt F) outView.junk

/-- The rows filled before point n (all of them from point 25 on) hold the complete buffers' rows. -/
def kept (c : Dev nD) (n : ℕ) (M : Vec F S10000x128 .f32) (C : Vec F S10000x1 .f32) : Prop :=
  (∀ y : S10000x128.Idx, (y 0).val < 400 * min n 25 → M y = matSpec m c y)
    ∧ (∀ y : S10000x1.Idx, (y 0).val < 400 * min n 25 → C y = colSpec m c y)

/-- Before the first point nothing is filled. -/
theorem kept_zero (c : Dev nD) (M : Vec F S10000x128 .f32) (C : Vec F S10000x1 .f32) : kept m c 0 M C :=
  ⟨fun y h => absurd h (by simp), fun y h => absurd h (by simp)⟩

/-- From point 25 on the buffers are the complete ones. -/
theorem kept_full (c : Dev nD) (n : ℕ) (hn : 25 ≤ n) (M : Vec F S10000x128 .f32) (C : Vec F S10000x1 .f32) (h : kept m c n M C) :
    M = matSpec m c ∧ C = colSpec m c := by
  have e : min n 25 = 25 := Nat.min_eq_right hn
  refine ⟨funext fun y => h.1 y ?_, funext fun y => h.2 y ?_⟩
  · rw [e]; exact (y 0).isLt
  · rw [e]; exact (y 0).isLt

/-- The second sweep changes nothing. -/
theorem kept_succ_second (c : Dev nD) (n : ℕ) (hn : 25 ≤ n) (M : Vec F S10000x128 .f32) (C : Vec F S10000x1 .f32) (h : kept m c n M C) :
    kept m c (n + 1) M C := by
  have e : min n 25 = 25 := Nat.min_eq_right hn
  have e' : min (n + 1) 25 = 25 := Nat.min_eq_right (by omega)
  unfold kept at h ⊢; rw [e'] ; rw [e] at h; exact h

/-- A first-sweep point fills its strip: writing the point's two pieces over buffers whose earlier strips are
    filled leaves buffers whose strips up to and including the point's are filled. -/
theorem kept_succ_first (c : Dev nD) (t : Fin cfg0.N) (ht : t.val < 25) (M : Vec F S10000x128 .f32) (C : Vec F S10000x1 .f32)
    (h : kept m c t.val M C) :
    kept m c (t.val + 1)
      (keepMat.view.read (Elt F) (keepMat.view.writes (Elt F) ((Memref.isWhole_whole cc0_scratch0).unread M)
        [⟨Rect.unit (s := S10000x128) (k0_off2 (grid0.coords t)) S400x128.size (k0_off2_inb (grid0.coords t) ((inFirst_iff t).mpr ht)),
          k0_pay3 (iblk m c 0 t) (iblk m c 1 t) (iblk m c 2 t) (iblk m c 3 t) (iblk m c 4 t)⟩]))
      (keepCol.view.read (Elt F) (keepCol.view.writes (Elt F) ((Memref.isWhole_whole cc0_scratch1).unread C)
        [⟨Rect.unit (s := S10000x1) (k0_off1 (grid0.coords t)) S400x1.size (k0_off1_inb (grid0.coords t) ((inFirst_iff t).mpr ht)),
          k0_pay2 (iblk m c 0 t)⟩])) := by
  have e : min t.val 25 = t.val := Nat.min_eq_left (le_of_lt ht)
  have e' : min (t.val + 1) 25 = t.val + 1 := Nat.min_eq_left ht
  have hpt : ∀ (r : ℕ) (hr : r < 10000), 400 * t.val ≤ r → r < 400 * t.val + 400 → firstPt (r / 400) (strip_lt r hr) = t := fun r hr h1 h2 =>
    Fin.ext (by show r / 400 = t.val; omega)
  unfold kept at h ⊢
  rw [e] at h; rw [e']
  refine ⟨fun y hy => ?_, fun y hy => ?_⟩
  · rw [View.read_writes_cons_rows (off := k0_off2 (grid0.coords t)) (size := S400x128.size) (o := 400 * t.val) (W := 400) keepMat.view _ (k0_off2_inb (grid0.coords t) ((inFirst_iff t).mpr ht)) _ [] y (off_mat_first t ht) rfl rfl]
    by_cases hin : 400 * t.val ≤ (y 0).val ∧ (y 0).val < 400 * t.val + 400
    · rw [dif_pos hin]
      unfold matSpec
      rw [hpt _ (y 0).isLt hin.1 hin.2]
      refine congrArg _ (funext fun a => Fin.ext ?_)
      match a with
      | ⟨0, _⟩ => show (y 0).val - 400 * t.val = (y 0).val % 400; omega
      | ⟨1, _⟩ => show (y 1).val - 0 = (y 1).val; omega
    · rw [dif_neg hin, View.writes_nil, Memref.IsWhole.read_unread]
      exact h.1 y (by omega)
  · rw [View.read_writes_cons_rows (off := k0_off1 (grid0.coords t)) (size := S400x1.size) (o := 400 * t.val) (W := 400) keepCol.view _ (k0_off1_inb (grid0.coords t) ((inFirst_iff t).mpr ht)) _ [] y (off_col_first t ht) rfl rfl]
    by_cases hin : 400 * t.val ≤ (y 0).val ∧ (y 0).val < 400 * t.val + 400
    · rw [dif_pos hin]
      unfold colSpec
      rw [hpt _ (y 0).isLt hin.1 hin.2]
      refine congrArg _ (funext fun a => Fin.ext ?_)
      match a with
      | ⟨0, _⟩ => show (y 0).val - 400 * t.val = (y 0).val % 400; omega
      | ⟨1, _⟩ => show (y 1).val - 0 = (y 1).val; omega
    · rw [dif_neg hin, View.writes_nil, Memref.IsWhole.read_unread]
      exact h.2 y (by omega)

end Cert.KernelIdeal.Sweeps

end
-- ==== Proof.SweepsIdeal.Obligation.lean ====
/-
  The pipeline's proof data and the body obligation, the frame run, and the frame.

  After the body at point t each input window's staging buffer holds the window's block, as it did before; the
  output window's holds `outAt` at a second-sweep point and is handed back untouched at a first-sweep point,
  where it is idle and not written back. Between points the region's invariant owns the two carried buffers at
  contents whose filled rows are the complete buffers' (`kept`), and the generator register at some state: the
  launch's own invariant gives it before the first point (nothing is filled yet) and gets it back after the last.
  The body obligation at a point is the run of its sweep: a first-sweep point fills one more strip
  (`kept_step_first`), a second-sweep point finds both buffers complete, reads them, and changes nothing.
-/
import proofs.«152062_g74156905332815_cont_9to1_m_764_11_alg».proof.Proof.SweepsIdeal.Carried

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A first-sweep point's own pieces, written over buffers whose earlier strips are filled, fill its strip. -/
theorem kept_step_first (c : Dev nD) (t : Fin cfg0.N) (ht : t.val < 25) (hs : ¬inSecond (grid0.coords t))
    (M : Vec F S10000x128 .f32) (C : Vec F S10000x1 .f32) (h : kept m c t.val M C) :
    kept m c (t.val + 1)
      (keepMat.view.read (Elt F) (keepMat.view.writes (Elt F) ((Memref.isWhole_whole cc0_scratch0).unread M)
        (firstRun c (grid0.coords t) (stg0 t) (hstg0 t) (stg1 t) (hstg1 t) (stg2 t) (hstg2 t) (stg3 t) (hstg3 t) (stg4 t) (hstg4 t) (stg5 t) (hstg5 t) (stg6 t) (hstg6 t) keepMat (Memref.isWhole_whole _) keepCol (Memref.isWhole_whole _) ((inFirst_iff t).mpr ht) hs (iblk m c 0 t) (iblk m c 1 t) (iblk m c 2 t) (iblk m c 3 t) (iblk m c 4 t) (iblk m c 5 t)).1))
      (keepCol.view.read (Elt F) (keepCol.view.writes (Elt F) ((Memref.isWhole_whole cc0_scratch1).unread C)
        (firstRun c (grid0.coords t) (stg0 t) (hstg0 t) (stg1 t) (hstg1 t) (stg2 t) (hstg2 t) (stg3 t) (hstg3 t) (stg4 t) (hstg4 t) (stg5 t) (hstg5 t) (stg6 t) (hstg6 t) keepMat (Memref.isWhole_whole _) keepCol (Memref.isWhole_whole _) ((inFirst_iff t).mpr ht) hs (iblk m c 0 t) (iblk m c 1 t) (iblk m c 2 t) (iblk m c 3 t) (iblk m c 4 t) (iblk m c 5 t)).2.1)) := by
  have key : ∀ (LM : List (View.Piece (Elt F) S10000x128 .f32)) (LC : List (View.Piece (Elt F) S10000x1 .f32)),
      LM = [⟨Rect.unit (s := S10000x128) (k0_off2 (grid0.coords t)) S400x128.size (k0_off2_inb (grid0.coords t) ((inFirst_iff t).mpr ht)),
          k0_pay3 (iblk m c 0 t) (iblk m c 1 t) (iblk m c 2 t) (iblk m c 3 t) (iblk m c 4 t)⟩] →
      LC = [⟨Rect.unit (s := S10000x1) (k0_off1 (grid0.coords t)) S400x1.size (k0_off1_inb (grid0.coords t) ((inFirst_iff t).mpr ht)),
          k0_pay2 (iblk m c 0 t)⟩] →
      kept m c (t.val + 1)
        (keepMat.view.read (Elt F) (keepMat.view.writes (Elt F) ((Memref.isWhole_whole cc0_scratch0).unread M) LM))
        (keepCol.view.read (Elt F) (keepCol.view.writes (Elt F) ((Memref.isWhole_whole cc0_scratch1).unread C) LC)) := by
    intro LM LC h1 h2
    subst h1; subst h2
    exact kept_succ_first m c t ht M C h
  exact key _ _ (firstRun_mat _ _ _ _ _ _ _ _ _ _ _ _ _ _ _ _ _ _ _ _ _ _ _ _ _ _ _ _) (firstRun_col _ _ _ _ _ _ _ _ _ _ _ _ _ _ _ _ _ _ _ _ _ _ _ _ _ _ _ _)

/-- One store through the full rectangle at zero offsets leaves its payload. -/
theorem read_store_whole {S : Shape} {e : EltTy} (v : View sig .tc .vmem S e) (f : v.ty.Contents (Elt F)) {off : Fin S.rank → ℕ}
    (hz : off = fun _ => 0) (inb : ∀ d, off d + S.size d ≤ S.size d) (w : (Rect.unit off S.size inb).shape.Idx → Elt F e) :
    v.read (Elt F) (v.writes (Elt F) f [(⟨Rect.unit off S.size inb, w⟩ : View.Piece (Elt F) S e)]) = w :=
  funext fun y => View.read_writes_cons_unit_of_mem v f inb w [] y y hz fun a => (Nat.zero_add _).symm

/-! ## The proof data -/

/-- The region's invariant before point n. -/
def PhiK (c : Dev nD) (n : ℕ) : sProp 𝕄 :=
  iprop((∃ M C, ⌜kept m c n M C⌝ ∗ owns (c : Thread nD τ) keepMat fullShare M ∗ owns (c : Thread nD τ) keepCol fullShare C) ∗ (∃ r, prngReg c r))

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiK m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem Phi_castSucc (c : Dev nD) (t : Fin cfg0.N) : (dats m 0 c).Φ t.castSucc = PhiK m c t.val := by
  dsimp only [dats]; simp only [Fin.coe_castSucc]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiK m c (t.val + 1) from rfl, Phi_castSucc m c t]
  unfold PhiK
  have hN : t.val < 50 := lt_of_lt_of_eq t.isLt (show cfg0.N = 50 from N_0)
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  rw [show (dats m 0 c).leavesExact 5 t = owns (c : Thread nD τ) (stg5 t) fullShare ((dats m 0 c).after 5 t) from by
    unfold Dat.leavesExact; rw [live_5 t], after_5]
  by_cases h0 : t.val < 25
  · have hs : ¬inSecond (grid0.coords t) := fun h => absurd ((inSecond_iff t).mp h) (by omega)
    rw [Dat.leavesExact_idle (dats m 0 c) 6 t (idle_6_first t hs) (noFlush_6_first t hs)]
    iintro ⟨⟨⟨%M, %C, %hk, HM, HC⟩, Hg⟩, Ho, ⟨%d0, H0⟩, ⟨%d1, H1⟩, ⟨%d2, H2⟩, ⟨%d3, H3⟩, ⟨%d4, H4⟩, ⟨%d5, H5⟩, ⟨%d6, H6⟩⟩
    iapply ((firstRun c (grid0.coords t) _ _ _ _ _ _ _ _ _ _ _ _ _ _ _ _ _ _ ((inFirst_iff t).mpr h0) hs (iblk m c 0 t) (iblk m c 1 t) (iblk m c 2 t) (iblk m c 3 t) (iblk m c 4 t) (iblk m c 5 t)).2.2 _ M C Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HM]; · iexact HM
    isplitl [HC]; · iexact HC
    iintro ⟨H0, H1, H2, H3, H4, H5, H6, HM, HC⟩
    isplitl [HM HC Hg]
    · isplitl [HM HC]
      · iexists _, _
        isplitr; · ipureintro; exact kept_step_first m c t h0 hs M C hk
        isplitl [HM]
        · unfold owns; iexists _; isplitr
          swap; · iexact HM
          ipureintro; rfl
        unfold owns; iexists _; isplitr
        swap; · iexact HC
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : 25 ≤ t.val := by omega
    have hf : ¬inFirst (grid0.coords t) := fun h => h0 ((inFirst_iff t).mp h)
    rw [show (dats m 0 c).leavesExact 6 t = owns (c : Thread nD τ) (stg6 t) fullShare ((dats m 0 c).after 6 t) from by
      unfold Dat.leavesExact; rw [live_6_second t ((inSecond_iff t).mpr h1)], after_6]
    iintro ⟨⟨⟨%M, %C, %hk, HM, HC⟩, Hg⟩, Ho, ⟨%d0, H0⟩, ⟨%d1, H1⟩, ⟨%d2, H2⟩, ⟨%d3, H3⟩, ⟨%d4, H4⟩, ⟨%d5, H5⟩, ⟨%d6, H6⟩⟩
    obtain ⟨rfl, rfl⟩ := kept_full m c t.val h1 M C hk
    iapply ((secondRun c (grid0.coords t) _ _ _ _ _ _ _ _ _ _ _ _ _ _ _ _ _ _ hf ((inSecond_iff t).mpr h1) (iblk m c 0 t) (iblk m c 1 t) (iblk m c 2 t) (iblk m c 3 t) (iblk m c 4 t) (iblk m c 5 t) (colRows m c t h1) (matSpec m c)).2 (matSpec m c) (colSpec m c) rfl (read_whole keepMat (Memref.isWhole_whole _) zero_off2 _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HM]; · iexact HM
    isplitl [HC]; · iexact HC
    iintro ⟨H0, H1, H2, H3, H4, H5, ⟨%f6, H6⟩, HM, HC⟩
    isplitl [HM HC Hg]
    · isplitl [HM HC]
      · iexists _, _
        isplitr; · ipureintro; exact kept_succ_second m c t.val h1 _ _ hk
        isplitl [HM]; · iexact HM
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    rw [secondRun_out]
    unfold outAt; rw [dif_pos h1]
    exact read_store_whole _ _ zero_off2 _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is filled yet. -/
theorem hin (c : Dev nD) : Pipeline.ΦA spec0 c ⊢ (dats m 0 c).Φ 0 := by
  rw [show (dats m 0 c).Φ 0 = PhiK m c 0 from rfl, launched_eq]
  unfold PhiK
  iintro ⟨⟨⟨%dM, HM⟩, ⟨%dC, HC⟩⟩, Hg⟩
  isplitl [HM HC]
  · iexists dM, dC
    isplitr; · ipureintro; exact kept_zero m c dM dC
    isplitl [HM]; · iexact HM
    iexact HC
  iexact Hg

/-- After the last point the invariant gives the launch's back: what the carried buffers hold is forgotten. -/
theorem hout (c : Dev nD) : (dats m 0 c).Φ (Fin.last cfg0.N) ⊢ Pipeline.ΦA spec0 c := by
  rw [show (dats m 0 c).Φ (Fin.last cfg0.N) = PhiK m c (Fin.last cfg0.N).val from rfl, launched_eq]
  unfold PhiK
  iintro ⟨⟨%M, %C, -, HM, HC⟩, Hg⟩
  isplitl [HM HC]
  · isplitl [HM]
    · iexists _; iexact HM
    iexists _; iexact HC
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Sweeps

end
-- ==== Proof.Spec.lean ====
/-
  A two-layer dense graph convolution followed by a row-wise Euclidean normalisation, over the extended reals,
  written twice: once in the order the fused kernel evaluates it (both aggregations contract against a
  128-wide operand, the biases enter through the row sums of the adjacency), once in the order of the
  textbook definition (each layer is a linear map plus bias, then aggregated). Every array is a plain
  function of its coordinates; no program is mentioned here.

  With `a = A i ·`: the kernel forms `(a · x) W₁ + (Σ a) b₁` where the definition forms `a · (x W₁ + b₁)`, and
  `a · P + (Σ a) b₂` where the definition forms `a · (P + b₂)`; the two agree on real entries by distributivity
  (`Algebra.lean`). What follows the second aggregation — the norm, the lower bound on it, the quotient — is one
  function of the aggregated row (`normalize`), so it never has to be opened.
-/
import Idealize.ShloMosaic.PureOps.Ideal
import Idealize.ShloMosaic.Lib.ValueIdx

noncomputable section

namespace Cert.Gcn

open Idealize.ShloMosaic

/-- A rank-two array of extended reals as a function of its two coordinates. -/
def mat {n0 n1 : Nat} (a : (⟨2, ![n0, n1]⟩ : Shape).Idx → EReal) (p : Fin n0) (q : Fin n1) : EReal := a (ValueIdx.ix2 p q)

/-- A rank-one array of extended reals as a function of its coordinate. -/
def vec {n : Nat} (a : (⟨1, ![n]⟩ : Shape).Idx → EReal) (p : Fin n) : EReal := a (ValueIdx.ix1 p)

theorem mat_apply {n0 n1 : Nat} (a : (⟨2, ![n0, n1]⟩ : Shape).Idx → EReal) (p : Fin n0) (q : Fin n1) :
    mat a p q = a (ValueIdx.ix2 p q) := rfl

theorem vec_apply {n : Nat} (a : (⟨1, ![n]⟩ : Shape).Idx → EReal) (p : Fin n) : vec a p = a (ValueIdx.ix1 p) := rfl

variable (x : Fin 10000 → Fin 128 → EReal) (A : Fin 10000 → Fin 10000 → EReal)
  (W1 : Fin 128 → Fin 256 → EReal) (b1 : Fin 256 → EReal) (W2 : Fin 256 → Fin 128 → EReal) (b2 : Fin 128 → EReal)

/-- A row divided by the larger of its Euclidean norm and `eps`. -/
def normalize (eps : EReal) (o : Fin 128 → EReal) (e : Fin 128) : EReal :=
  Ideal.div (o e) (max (Ideal.sqrt (∑ e' : Fin 128, o e' * o e')) eps)

/-! ## In the kernel's order -/

/-- The sum of row `i` of the adjacency. -/
def rowsum (i : Fin 10000) : EReal := ∑ k : Fin 10000, A i k

/-- Row `i` of `A x`. -/
def agg (i : Fin 10000) (c : Fin 128) : EReal := ∑ k : Fin 10000, A i k * x k c

/-- The hidden layer as the kernel forms it: `max ((A x) W₁ + rowsum · b₁) 0`. -/
def hidK (i : Fin 10000) (d : Fin 256) : EReal :=
  max ((∑ c : Fin 128, agg x A i c * W1 c d) + rowsum A i * b1 d) 0

/-- The hidden layer projected by `W₂` (what the kernel keeps between its two sweeps). -/
def projK (i : Fin 10000) (e : Fin 128) : EReal := ∑ d : Fin 256, hidK x A W1 b1 i d * W2 d e

/-- The second aggregation as the kernel forms it: `A P + rowsum · b₂`. -/
def outK (i : Fin 10000) (e : Fin 128) : EReal :=
  (∑ k : Fin 10000, A i k * projK x A W1 b1 W2 k e) + rowsum A i * b2 e

/-- The kernel's result. -/
def kernelVal (eps : EReal) (i : Fin 10000) (e : Fin 128) : EReal := normalize eps (outK x A W1 b1 W2 b2 i) e

/-! ## In the definition's order -/

/-- The first linear layer: `x W₁ + b₁`. -/
def lin1 (k : Fin 10000) (d : Fin 256) : EReal := (∑ c : Fin 128, x k c * W1 c d) + b1 d

/-- The hidden layer: `max (A (x W₁ + b₁)) 0`. -/
def hidR (i : Fin 10000) (d : Fin 256) : EReal := max (∑ k : Fin 10000, A i k * lin1 x W1 b1 k d) 0

/-- The second linear layer: `h W₂ + b₂`. -/
def lin2 (k : Fin 10000) (e : Fin 128) : EReal := (∑ d : Fin 256, hidR x A W1 b1 k d * W2 d e) + b2 e

/-- The second aggregation: `A (h W₂ + b₂)`. -/
def outR (i : Fin 10000) (e : Fin 128) : EReal := ∑ k : Fin 10000, A i k * lin2 x A W1 b1 W2 b2 k e

/-- The reference's result. -/
def refVal (eps : EReal) (i : Fin 10000) (e : Fin 128) : EReal := normalize eps (outR x A W1 b1 W2 b2 i) e

end Cert.Gcn

end
-- ==== Proof.PayValue.lean ====
/-
  Each value the kernel body stores, read at one index over the extended reals, as plain sums.

  The body computes three arrays from the adjacency strip it is given: the strip's row sums (a 400 × 1 column), the
  hidden layer projected by the second weight matrix, and — in the second sweep — the aggregated row with its bias term,
  divided by the larger of its Euclidean norm and a small constant. Every operation in between is either pointwise (it
  commutes with reading at an index), a change of layout (it reads its operand at one index, named here by coordinates),
  a sum along the lanes, or a matrix product into a zero accumulator (a sum over the one contracted coordinate).
-/
import proofs.«152062_g74156905332815_cont_9to1_m_764_11_alg».proof.Proof.Gen.KernelIdeal.Skeleton
import proofs.«152062_g74156905332815_cont_9to1_m_764_11_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Pay

open Cert.KernelIdeal Cert.KernelIdeal.Gen Idealize.ShloMosaic Idealize.ShloMosaic.ValueIdx

/-! ## Layout: a vector as a column, and a column repeated along the lanes -/

section Layout
variable {α : Type}

/-- An `[a]` array cast to `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix product into the zero accumulator, read at `(p, q)` -/

/-- For a rank-two product contracting the left operand's columns against the right operand's rows, the entry at
    `(p, q)` is `∑ k, l (p, k) * r (k, q)`: the contraction index is its one coordinate `k`, and the four hypotheses say
    which coordinate of each operand index is `p`, `q` or `k`. -/
theorem matmul_zero_ix2 {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (l : FVec Ideal ⟨2, ![M, K]⟩ .f32) (r : FVec Ideal ⟨2, ![K, N]⟩ .f32) (p : Fin M) (q : Fin N) :
    matmul D none l r (constant (F := Ideal) ⟨2, ![M, N]⟩ .f32 0x00000000#32) (ix2 p q)
      = ∑ k : Fin K, l (ix2 p k) * r (ix2 k q) := by
  refine (Ideal.matmul_constant_zero_apply D none l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

variable [Cert.KernelIdeal.Facts]

/-- The strip times the features: `[400, 10000] · [10000, 128]`. -/
theorem matmulA_apply (l : FVec Ideal S400x10000 .f32) (r : FVec Ideal S10000x128 .f32) (p : Fin 400) (q : Fin 128) :
    matmul dot_S400x10000_S10000x128_S400x128_1_0_0_1_n_n none l r (constant (F := Ideal) S400x128 .f32 0x00000000#32) (ix2 p q)
      = ∑ k : Fin 10000, l (ix2 p k) * r (ix2 k q) :=
  matmul_zero_ix2 dot_S400x10000_S10000x128_S400x128_1_0_0_1_n_n rfl rfl
    (fun j c => by
      unfold DotDims.lhsIdx
      rw [dif_neg (show ¬(0 : Fin S400x10000.rank) ∈ dot_S400x10000_S10000x128_S400x128_1_0_0_1_n_n.lhsBatch by decide),
        dif_pos (show (0 : Fin S400x10000.rank) ∈ dot_S400x10000_S10000x128_S400x128_1_0_0_1_n_n.lhsNonContracting by decide)]
      rfl)
    (fun j c => dot_S400x10000_S10000x128_S400x128_1_0_0_1_n_n.lhsIdx_val_of_single rfl j c)
    (fun j c => dot_S400x10000_S10000x128_S400x128_1_0_0_1_n_n.rhsIdx_val_of_single rfl j c)
    (fun j c => by
      unfold DotDims.rhsIdx
      rw [dif_neg (show ¬(1 : Fin S10000x128.rank) ∈ dot_S400x10000_S10000x128_S400x128_1_0_0_1_n_n.rhsBatch by decide),
        dif_pos (show (1 : Fin S10000x128.rank) ∈ dot_S400x10000_S10000x128_S400x128_1_0_0_1_n_n.rhsNonContracting by decide)]
      rfl)
    l r p q

/-- The aggregated features times the first weight matrix: `[400, 128] · [128, 256]`. -/
theorem matmulB_apply (l : FVec Ideal S400x128 .f32) (r : FVec Ideal S128x256 .f32) (p : Fin 400) (q : Fin 256) :
    matmul dot_S400x128_S128x256_S400x256_1_0_0_1_n_n none l r (constant (F := Ideal) S400x256 .f32 0x00000000#32) (ix2 p q)
      = ∑ k : Fin 128, l (ix2 p k) * r (ix2 k q) :=
  matmul_zero_ix2 dot_S400x128_S128x256_S400x256_1_0_0_1_n_n rfl rfl
    (fun j c => by
      unfold DotDims.lhsIdx
      rw [dif_neg (show ¬(0 : Fin S400x128.rank) ∈ dot_S400x128_S128x256_S400x256_1_0_0_1_n_n.lhsBatch by decide),
        dif_pos (show (0 : Fin S400x128.rank) ∈ dot_S400x128_S128x256_S400x256_1_0_0_1_n_n.lhsNonContracting by decide)]
      rfl)
    (fun j c => dot_S400x128_S128x256_S400x256_1_0_0_1_n_n.lhsIdx_val_of_single rfl j c)
    (fun j c => dot_S400x128_S128x256_S400x256_1_0_0_1_n_n.rhsIdx_val_of_single rfl j c)
    (fun j c => by
      unfold DotDims.rhsIdx
      rw [dif_neg (show ¬(1 : Fin S128x256.rank) ∈ dot_S400x128_S128x256_S400x256_1_0_0_1_n_n.rhsBatch by decide),
        dif_pos (show (1 : Fin S128x256.rank) ∈ dot_S400x128_S128x256_S400x256_1_0_0_1_n_n.rhsNonContracting by decide)]
      rfl)
    l r p q

/-- The hidden layer times the second weight matrix: `[400, 256] · [256, 128]`. -/
theorem matmulC_apply (l : FVec Ideal S400x256 .f32) (r : FVec Ideal S256x128 .f32) (p : Fin 400) (q : Fin 128) :
    matmul dot_S400x256_S256x128_S400x128_1_0_0_1_n_n none l r (constant (F := Ideal) S400x128 .f32 0x00000000#32) (ix2 p q)
      = ∑ k : Fin 256, l (ix2 p k) * r (ix2 k q) :=
  matmul_zero_ix2 dot_S400x256_S256x128_S400x128_1_0_0_1_n_n rfl rfl
    (fun j c => by
      unfold DotDims.lhsIdx
      rw [dif_neg (show ¬(0 : Fin S400x256.rank) ∈ dot_S400x256_S256x128_S400x128_1_0_0_1_n_n.lhsBatch by decide),
        dif_pos (show (0 : Fin S400x256.rank) ∈ dot_S400x256_S256x128_S400x128_1_0_0_1_n_n.lhsNonContracting by decide)]
      rfl)
    (fun j c => dot_S400x256_S256x128_S400x128_1_0_0_1_n_n.lhsIdx_val_of_single rfl j c)
    (fun j c => dot_S400x256_S256x128_S400x128_1_0_0_1_n_n.rhsIdx_val_of_single rfl j c)
    (fun j c => by
      unfold DotDims.rhsIdx
      rw [dif_neg (show ¬(1 : Fin S256x128.rank) ∈ dot_S400x256_S256x128_S400x128_1_0_0_1_n_n.rhsBatch by decide),
        dif_pos (show (1 : Fin S256x128.rank) ∈ dot_S400x256_S256x128_S400x128_1_0_0_1_n_n.rhsNonContracting by decide)]
      rfl)
    l r p q

/-! ## A sum along the lanes -/

/-- A sum over axis 1 of an `[a, b]` array from the zero word, read at row `p`, is the sum of that row. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  match c with
  | ⟨0, _⟩ => rfl
  | ⟨1, _⟩ => rfl

/-- A square root at an index is the square root of the element. -/
theorem sqrt_apply {s : Shape} {φ : FTy} (x : FVec Ideal s φ) (i : s.Idx) : sqrt x i = Ideal.sqrt (x i) := rfl

/-! ## The payloads -/

/-- The strip's row sums as a column: entry `(p, 0)` is the sum of row `p`. -/
theorem pay1_apply (v1 : Vec Ideal S400x10000 .f32) (p : Fin 400) :
    k0_pay1 (F := Ideal) v1 (ix2 p (0 : Fin 1)) = ∑ k : Fin 10000, v1 (ix2 p k) := by
  unfold k0_pay1
  refine (shapeCast_a_a1_apply _ _ p 0).trans ?_
  exact laneSum_apply v1 _ _ _ p

/-- the row sums the first sweep stores: entry (p,0) is the sum of row p of the adjacency strip -/
theorem pay2_apply (v1 : Vec Ideal S400x10000 .f32) (p : Fin 400) :
    k0_pay2 (F := Ideal) v1 (ix2 p (0 : Fin 1)) = ∑ k : Fin 10000, v1 (ix2 p k) := by
  unfold k0_pay2
  rw [shapeCast_self]
  exact pay1_apply v1 p

/-- what the first sweep stores into the carried buffer: relu((strip·x)·W1 + rowsum·b1)·W2 at (p,e) -/
theorem pay3_apply (v1 : Vec Ideal S400x10000 .f32) (v15 : Vec Ideal S10000x128 .f32) (v17 : Vec Ideal S128x256 .f32) (v19 : Vec Ideal S1x256 .f32) (v27 : Vec Ideal S256x128 .f32) (p : Fin 400) (e : Fin 128) :
    k0_pay3 (F := Ideal) v1 v15 v17 v19 v27 (ix2 p e)
      = ∑ d : Fin 256, max ((∑ c : Fin 128, (∑ k : Fin 10000, v1 (ix2 p k) * v15 (ix2 k c)) * v17 (ix2 c d)) + (∑ k : Fin 10000, v1 (ix2 p k)) * v19 (ix2 (0 : Fin 1) d)) 0 * v27 (ix2 d e) := by
  unfold k0_pay3
  simp only [shapeCast_self, matmulC_apply, maximumf_apply, broadcast_apply, addf_apply, mulf_apply, matmulB_apply, matmulA_apply,
    broadcastTo_a1_ab_apply, broadcastTo_1b_ab_apply, pay1_apply, Ideal.ofBits_def, Ideal.ofBits_zero_f32]

/-- what the second sweep stores into the output block: the aggregated row plus rowsum·b2, normalised -/
theorem pay4_apply (v1 : Vec Ideal S400x10000 .f32) (v10 : Vec Ideal S400x1 .f32) (v11 : Vec Ideal S10000x128 .f32) (v13 : Vec Ideal S1x128 .f32) (p : Fin 400) (e : Fin 128) :
    k0_pay4 (F := Ideal) v1 v10 v11 v13 (ix2 p e)
      = Cert.Gcn.normalize (Ideal.ofBits .f32 0x2B8CBCCC#32) (fun e' : Fin 128 => (∑ k : Fin 10000, v1 (ix2 p k) * v11 (ix2 k e')) + v10 (ix2 p (0 : Fin 1)) * v13 (ix2 (0 : Fin 1) e')) e := by
  unfold k0_pay4 Cert.Gcn.normalize
  simp only [shapeCast_self, divf_apply, maximumf_apply, broadcast_apply, addf_apply, mulf_apply, sqrt_apply, matmulA_apply,
    broadcastTo_a1_ab_apply, broadcastTo_1b_ab_apply, shapeCast_a_a1_apply, Ideal.ofBits_def]
  refine congrArg (fun z => Ideal.div _ (max (Ideal.sqrt z) _)) ?_
  refine (laneSum_apply _ _ _ _ p).trans ?_
  refine Finset.sum_congr rfl fun x _ => ?_
  simp only [addf_apply, mulf_apply, matmulA_apply, broadcastTo_a1_ab_apply, broadcastTo_1b_ab_apply]

end Cert.Gcn.Pay

end
-- ==== Proof.Blocks.lean ====
/-
  The blocks of the kernel's windows, read at coordinates.

  The adjacency is staged in strips of 400 rows: at grid point `t` the strip's row `p` is row
  `400 * (t % 25) + p` of the array. The features, the two weight matrices and the two biases are staged whole, so a
  block's entry is the array's entry at the same coordinates; the biases reach the kernel as `[1, n]` arrays, the
  row-major recasts of the launched `[n]` arrays, and the entry at `(0, d)` is the launched entry at `d`.
  The result is written back in strips of 400 rows at the points `t ≥ 25`, strip `t - 25`; these 25 strips cover
  the 10000 rows.
-/
import proofs.«152062_g74156905332815_cont_9to1_m_764_11_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-! ## The index maps over the grid -/

/-- The adjacency's strip at point `t` is strip `t % 25`, all columns. -/
theorem idx_adj : ∀ t : Fin cfg0.N, win0_0.index t (0 : Fin 2) = t.val % 25 ∧ win0_0.index t (1 : Fin 2) = 0 :=
  (by decide +kernel : ∀ t : Fin grid0.N, _)

/-- The whole-array windows never move. -/
theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The result's strip at point `t` is strip `t - 25` (strip 0 before point 25), all columns. -/
theorem idx_out : ∀ t : Fin cfg0.N, win0_6.index t (0 : Fin 2) = t.val - 25 ∧ win0_6.index t (1 : Fin 2) = 0 :=
  (by decide +kernel : ∀ t : Fin grid0.N, _)

/-- The result is written back exactly at the points from 25 on. -/
theorem flush_out : ∀ t : Fin cfg0.N, (cfg0.win 6).flush t = true ↔ 25 ≤ t.val :=
  (by decide +kernel : ∀ t : Fin grid0.N, win0_6.flush t = true ↔ 25 ≤ t.val)

/-! ## The input blocks -/

theorem adj_block (c : Dev nD) (t : Fin cfg0.N) (p : Fin 400) (k : Fin 10000) (r : Fin 10000) (hr : r.val = 400 * (t.val % 25) + p.val) :
    iblk m c 0 t (ix2 p k) = m ((c : Thread nD τ).loc main_arg1) (ix2 r k) := by
  show V m c main_arg1 (((cfg0.win 0).blk t).view.emb (ix2 p k)) = _
  rw [V_main_arg1]
  obtain ⟨e0, e1⟩ := idx_adj t
  refine congrArg _ (funext fun a => Fin.ext ?_)
  match a with
  | ⟨0, _⟩ => show win0_0.index t (0 : Fin 2) * 400 + 1 * p.val = r.val; omega
  | ⟨1, _⟩ => show win0_0.index t (1 : Fin 2) * 10000 + 1 * k.val = k.val; omega

theorem x_block (c : Dev nD) (t : Fin cfg0.N) (k : Fin 10000) (q : Fin 128) :
    iblk m c 1 t (ix2 k q) = m ((c : Thread nD τ).loc main_arg0) (ix2 k q) := by
  show V m c main_arg0 (((cfg0.win 1).blk t).view.emb (ix2 k q)) = _
  rw [V_main_arg0]
  obtain ⟨⟨e0, e1⟩, -⟩ := idx_whole t
  refine congrArg _ (funext fun a => Fin.ext ?_)
  match a with
  | ⟨0, _⟩ => show win0_1.index t (0 : Fin 2) * 10000 + 1 * k.val = k.val; omega
  | ⟨1, _⟩ => show win0_1.index t (1 : Fin 2) * 128 + 1 * q.val = q.val; omega

theorem w1_block (c : Dev nD) (t : Fin cfg0.N) (q : Fin 128) (d : Fin 256) :
    iblk m c 2 t (ix2 q d) = m ((c : Thread nD τ).loc main_arg2) (ix2 q d) := by
  show V m c main_arg2 (((cfg0.win 2).blk t).view.emb (ix2 q d)) = _
  rw [V_main_arg2]
  obtain ⟨-, ⟨e0, e1⟩, -⟩ := idx_whole t
  refine congrArg _ (funext fun a => Fin.ext ?_)
  match a with
  | ⟨0, _⟩ => show win0_2.index t (0 : Fin 2) * 128 + 1 * q.val = q.val; omega
  | ⟨1, _⟩ => show win0_2.index t (1 : Fin 2) * 256 + 1 * d.val = d.val; omega

theorem w2_block (c : Dev nD) (t : Fin cfg0.N) (d : Fin 256) (e : Fin 128) :
    iblk m c 4 t (ix2 d e) = m ((c : Thread nD τ).loc main_arg4) (ix2 d e) := by
  show V m c main_arg4 (((cfg0.win 4).blk t).view.emb (ix2 d e)) = _
  rw [V_main_arg4]
  obtain ⟨-, -, -, ⟨e0, e1⟩, -⟩ := idx_whole t
  refine congrArg _ (funext fun a => Fin.ext ?_)
  match a with
  | ⟨0, _⟩ => show win0_4.index t (0 : Fin 2) * 256 + 1 * d.val = d.val; omega
  | ⟨1, _⟩ => show win0_4.index t (1 : Fin 2) * 128 + 1 * e.val = e.val; omega

/-! ## The biases: launched as vectors, staged as one-row matrices -/

/-- When the region is entered the first bias's `[1, 256]` array is the row-major recast of the launched `[256]` array. -/
theorem host_b1 (c : Dev nD) :
    (V m c main_v0 : S1x256.Idx → Elt F .f32) = shapeCast S1x256 (m ((c : Thread nD τ).loc main_arg3)) shapeCasts_S256_S1x256 := by
  dsimp only [Gen.V, Gen.hostOps0]
  after_results
  rfl

/-- When the region is entered the second bias's `[1, 128]` array is the row-major recast of the launched `[128]` array. -/
theorem host_b2 (c : Dev nD) :
    (V m c main_v1 : S1x128.Idx → Elt F .f32) = shapeCast S1x128 (m ((c : Thread nD τ).loc main_arg5)) shapeCasts_S128_S1x128 := by
  dsimp only [Gen.V, Gen.hostOps0]
  after_results
  rfl

theorem b1_block (c : Dev nD) (t : Fin cfg0.N) (d : Fin 256) :
    iblk m c 3 t (ix2 (0 : Fin 1) d) = m ((c : Thread nD τ).loc main_arg3) (ix1 d) := by
  show V m c main_v0 (((cfg0.win 3).blk t).view.emb (ix2 (0 : Fin 1) d)) = _
  obtain ⟨-, -, ⟨e0, e1⟩, -, -⟩ := idx_whole t
  have hemb : ((cfg0.win 3).blk t).view.emb (ix2 (0 : Fin 1) d) = (ix2 (0 : Fin 1) d : S1x256.Idx) :=
    funext fun a => Fin.ext (by
      match a with
      | ⟨0, _⟩ => show win0_3.index t (0 : Fin 2) * 1 + 1 * 0 = 0; omega
      | ⟨1, _⟩ => show win0_3.index t (1 : Fin 2) * 256 + 1 * d.val = d.val; omega)
  rw [hemb, host_b1 m c]
  exact shapeCast_a_1a_apply _ _ 0 d

theorem b2_block (c : Dev nD) (t : Fin cfg0.N) (e : Fin 128) :
    iblk m c 5 t (ix2 (0 : Fin 1) e) = m ((c : Thread nD τ).loc main_arg5) (ix1 e) := by
  show V m c main_v1 (((cfg0.win 5).blk t).view.emb (ix2 (0 : Fin 1) e)) = _
  obtain ⟨-, -, -, -, ⟨e0, e1⟩⟩ := idx_whole t
  have hemb : ((cfg0.win 5).blk t).view.emb (ix2 (0 : Fin 1) e) = (ix2 (0 : Fin 1) e : S1x128.Idx) :=
    funext fun a => Fin.ext (by
      match a with
      | ⟨0, _⟩ => show win0_5.index t (0 : Fin 2) * 1 + 1 * 0 = 0; omega
      | ⟨1, _⟩ => show win0_5.index t (1 : Fin 2) * 128 + 1 * e.val = e.val; omega)
  rw [hemb, host_b2 m c]
  exact shapeCast_a_1a_apply _ _ 0 e

/-! ## The result window -/

/-- Strip `t - 25` of any contents of the result array, read at `(p, e)`, is the contents at row `400 * (t - 25) + p`. -/
theorem out_block (c : Dev nD) (t : Fin cfg0.N) (ht : 25 ≤ t.val) (G : Buf (Elt F) ((cfg0.win 6).arr.view.loc (c.tc : Thread nD τ)))
    (p : Fin 400) (e : Fin 128) (r : Fin 10000) (hr : r.val = 400 * (t.val - 25) + p.val) :
    ((cfg0.win 6).blk t).view.read (Elt F) G (ix2 p e) = G (ix2 r e) := by
  show G (((cfg0.win 6).blk t).view.emb (ix2 p e)) = _
  obtain ⟨e0, e1⟩ := idx_out t
  refine congrArg _ (funext fun a => Fin.ext ?_)
  match a with
  | ⟨0, _⟩ => show win0_6.index t (0 : Fin 2) * 400 + 1 * p.val = r.val; omega
  | ⟨1, _⟩ => show win0_6.index t (1 : Fin 2) * 128 + 1 * e.val = e.val; omega

/-- An index of the result array is in point `t`'s strip iff each coordinate is in the strip's range on its axis. -/
theorem mem_out (t : Fin cfg0.N) (i : S10000x128.Idx) :
    i ∈ ((cfg0.win 6).blk t).view.set
      ↔ ∀ a : Fin 2, win0_6.index t a * S400x128.size a ≤ (i a).val ∧ (i a).val < win0_6.index t a * S400x128.size a + S400x128.size a := by
  show i ∈ ((View.whole main_v2).slice (win0_6.rect t)).set ↔ _
  rw [View.set_slice_whole, Rect.mem_set_unit]
  exact Iff.rfl

/-- Every index of the result array lies in a strip that is written back: row `r` in the strip of point `25 + r / 400`. -/
theorem out_cover (c : Dev nD) (i : ((cfg0.win 6).arr.view.loc (c.tc : Thread nD τ)).2.ty.Idx) :
    ∃ t : Fin cfg0.N, (cfg0.win 6).flush t = true ∧ i ∈ ((cfg0.win 6).blk t).view.set := by
  have hN : cfg0.N = 50 := N_0
  have hi0 : ((i : S10000x128.Idx) 0).val < 10000 := idx2_lt0 (i : S10000x128.Idx)
  have hi1 : ((i : S10000x128.Idx) 1).val < 128 := idx2_lt1 (i : S10000x128.Idx)
  obtain ⟨t, ht⟩ : ∃ t : Fin cfg0.N, t.val = 25 + ((i : S10000x128.Idx) 0).val / 400 :=
    ⟨⟨25 + ((i : S10000x128.Idx) 0).val / 400, by omega⟩, rfl⟩
  obtain ⟨e0, e1⟩ := idx_out t
  refine ⟨t, (flush_out t).mpr (by omega), ?_⟩
  rw [mem_out]
  intro a
  match a with
  | ⟨0, _⟩ => show win0_6.index t (0 : Fin 2) * 400 ≤ ((i : S10000x128.Idx) 0).val ∧ ((i : S10000x128.Idx) 0).val < win0_6.index t (0 : Fin 2) * 400 + 400; omega
  | ⟨1, _⟩ => show win0_6.index t (1 : Fin 2) * 128 ≤ ((i : S10000x128.Idx) 1).val ∧ ((i : S10000x128.Idx) 1).val < win0_6.index t (1 : Fin 2) * 128 + 128; omega

end Cert.KernelIdeal.Blocks

end
-- ==== Proof.KernelValue.lean ====
/-
  The kernel's result array as one function of its arguments, over the extended reals.

  The carried column holds, in row r, the sum of row r of the adjacency; the carried matrix holds, in row k, the
  projected hidden row k. Both are read strip by strip: row r lies in strip r / 400 at position r % 400, and the
  strip staged at grid point s < 25 is rows 400·s … 400·s + 399 of the adjacency. A second-sweep point t reads rows
  400·(t − 25) … of the column, the whole matrix, and the same strip of the adjacency again, and leaves the
  normalised aggregated rows; the 25 strips written back cover the result, which therefore is the specification's
  `kernelVal` at every index.
-/
import proofs.«152062_g74156905332815_cont_9to1_m_764_11_alg».proof.Proof.SweepsIdeal.Obligation
import proofs.«152062_g74156905332815_cont_9to1_m_764_11_alg».proof.Proof.PayValue
import proofs.«152062_g74156905332815_cont_9to1_m_764_11_alg».proof.Proof.Blocks
import proofs.«152062_g74156905332815_cont_9to1_m_764_11_alg».proof.Proof.Spec
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Sweeps Idealize.ShloMosaic Idealize.ShloMosaic.TcCoe Idealize.ShloMosaic.ValueIdx Idealize.SL.Sem

variable (m : (ℓ : Loc nD τ sig) → Buf (Elt Ideal) ℓ)

/-! ## The six arguments as functions of their coordinates -/

/-- The features. -/
def xA (c : Dev nD) : Fin 10000 → Fin 128 → EReal := Cert.Gcn.mat (n0 := 10000) (n1 := 128) (m ((c : Thread nD τ).loc main_arg0))
/-- The adjacency. -/
def adjA (c : Dev nD) : Fin 10000 → Fin 10000 → EReal := Cert.Gcn.mat (n0 := 10000) (n1 := 10000) (m ((c : Thread nD τ).loc main_arg1))
/-- The first weight matrix. -/
def w1A (c : Dev nD) : Fin 128 → Fin 256 → EReal := Cert.Gcn.mat (n0 := 128) (n1 := 256) (m ((c : Thread nD τ).loc main_arg2))
/-- The first bias. -/
def b1A (c : Dev nD) : Fin 256 → EReal := Cert.Gcn.vec (n := 256) (m ((c : Thread nD τ).loc main_arg3))
/-- The second weight matrix. -/
def w2A (c : Dev nD) : Fin 256 → Fin 128 → EReal := Cert.Gcn.mat (n0 := 256) (n1 := 128) (m ((c : Thread nD τ).loc main_arg4))
/-- The second bias. -/
def b2A (c : Dev nD) : Fin 128 → EReal := Cert.Gcn.vec (n := 128) (m ((c : Thread nD τ).loc main_arg5))

/-! ## The carried column -/

/-- Row r of the complete column is the sum of row r of the adjacency. -/
theorem colSpec_apply (c : Dev nD) (r : Fin 10000) : colSpec (F := Ideal) m c (ix2 r (0 : Fin 1)) = Cert.Gcn.rowsum (adjA m c) r := by
  unfold colSpec
  show k0_pay2 (F := Ideal) (iblk m c 0 (firstPt (r.val / 400) (strip_lt _ r.isLt))) (ix2 (⟨r.val % 400, Nat.mod_lt _ (by decide)⟩ : Fin 400) (0 : Fin 1)) = _
  rw [Cert.Gcn.Pay.pay2_apply]
  unfold Cert.Gcn.rowsum adjA
  refine Finset.sum_congr rfl fun k _ => ?_
  rw [Cert.Gcn.mat_apply]
  exact Blocks.adj_block m c (firstPt (r.val / 400) (strip_lt _ r.isLt)) ⟨r.val % 400, Nat.mod_lt _ (by decide)⟩ k r (by
    show r.val = 400 * ((r.val / 400) % 25) + r.val % 400
    have := r.isLt
    omega)

/-! ## The carried matrix -/

/-- The projection payload over blocks that read as the arguments: the strip's row p being row k of the adjacency,
    its entry at (p, e) is the projected hidden row k at e. -/
theorem pay3_eq (c : Dev nD) (v1 : Vec Ideal S400x10000 .f32) (v15 : Vec Ideal S10000x128 .f32) (v17 : Vec Ideal S128x256 .f32)
    (v19 : Vec Ideal S1x256 .f32) (v27 : Vec Ideal S256x128 .f32) (p : Fin 400) (k : Fin 10000)
    (h1 : ∀ j : Fin 10000, v1 (ix2 p j) = adjA m c k j) (h15 : ∀ (j : Fin 10000) (q : Fin 128), v15 (ix2 j q) = xA m c j q)
    (h17 : ∀ (q : Fin 128) (d : Fin 256), v17 (ix2 q d) = w1A m c q d) (h19 : ∀ d : Fin 256, v19 (ix2 (0 : Fin 1) d) = b1A m c d)
    (h27 : ∀ (d : Fin 256) (e : Fin 128), v27 (ix2 d e) = w2A m c d e) (e : Fin 128) :
    k0_pay3 (F := Ideal) v1 v15 v17 v19 v27 (ix2 p e) = Cert.Gcn.projK (xA m c) (adjA m c) (w1A m c) (b1A m c) (w2A m c) k e := by
  rw [Cert.Gcn.Pay.pay3_apply]
  unfold Cert.Gcn.projK Cert.Gcn.hidK Cert.Gcn.agg Cert.Gcn.rowsum
  refine Finset.sum_congr rfl fun d _ => ?_
  have hsum : (∑ j : Fin 10000, v1 (ix2 p j)) = ∑ j : Fin 10000, adjA m c k j := Finset.sum_congr rfl fun j _ => h1 j
  have hlin : (∑ q : Fin 128, (∑ j : Fin 10000, v1 (ix2 p j) * v15 (ix2 j q)) * v17 (ix2 q d))
      = ∑ q : Fin 128, (∑ j : Fin 10000, adjA m c k j * xA m c j q) * w1A m c q d :=
    Finset.sum_congr rfl fun q _ => by
      rw [h17 q d]
      exact congrArg (· * w1A m c q d) (Finset.sum_congr rfl fun j _ => by rw [h1 j, h15 j q])
  rw [hsum, hlin, h19 d, h27 d e]

/-- Row k of the complete matrix is the projected hidden row k. -/
theorem matSpec_apply (c : Dev nD) (k : Fin 10000) (e : Fin 128) :
    matSpec (F := Ideal) m c (ix2 k e) = Cert.Gcn.projK (xA m c) (adjA m c) (w1A m c) (b1A m c) (w2A m c) k e := by
  unfold matSpec
  show k0_pay3 (F := Ideal) (iblk m c 0 (firstPt (k.val / 400) (strip_lt _ k.isLt))) (iblk m c 1 (firstPt (k.val / 400) (strip_lt _ k.isLt)))
      (iblk m c 2 (firstPt (k.val / 400) (strip_lt _ k.isLt))) (iblk m c 3 (firstPt (k.val / 400) (strip_lt _ k.isLt)))
      (iblk m c 4 (firstPt (k.val / 400) (strip_lt _ k.isLt)))
      (ix2 (⟨k.val % 400, Nat.mod_lt _ (by decide)⟩ : Fin 400) e) = _
  refine pay3_eq m c _ _ _ _ _ _ k (fun j => Blocks.adj_block m c _ _ j k ?_) (fun j q => Blocks.x_block m c _ j q)
    (fun q d => Blocks.w1_block m c _ q d) (fun d => Blocks.b1_block m c _ d) (fun d e => Blocks.w2_block m c _ d e) e
  show k.val = 400 * ((k.val / 400) % 25) + k.val % 400
  have := k.isLt
  omega

/-! ## The column's rows a second-sweep point reads -/

/-- Position p of what point t ≥ 25 reads of the column is row 400·(t − 25) + p of the adjacency, summed. -/
theorem colRows_apply (c : Dev nD) (t : Fin cfg0.N) (h : 25 ≤ t.val) (p : Fin 400) (r : Fin 10000) (hr : r.val = 400 * (t.val - 25) + p.val) :
    colRows (F := Ideal) m c t h (ix2 p (0 : Fin 1)) = Cert.Gcn.rowsum (adjA m c) r := by
  unfold colRows
  rw [View.readAt_eq_ld, Memref.IsWhole.read_unread]
  have e0 : k0_off3 (grid0.coords t) (0 : Fin 2) = 400 * (t.val - 25) := by rw [off_col_second t h]; rfl
  have e1 : k0_off3 (grid0.coords t) (1 : Fin 2) = 0 := by rw [off_col_second t h]; rfl
  have hi : (Rect.unit (s := S10000x1) (k0_off3 (grid0.coords t)) S400x1.size (k0_off3_inb (grid0.coords t) ((inSecond_iff t).mpr h))).idx (ix2 p (0 : Fin 1))
      = (ix2 r (0 : Fin 1) : S10000x1.Idx) :=
    funext fun a => Fin.ext (by
      match a with
      | ⟨0, _⟩ => show k0_off3 (grid0.coords t) (0 : Fin 2) + 1 * p.val = r.val; omega
      | ⟨1, _⟩ => show k0_off3 (grid0.coords t) (1 : Fin 2) + 1 * 0 = 0; omega)
  show colSpec (F := Ideal) m c ((Rect.unit (s := S10000x1) (k0_off3 (grid0.coords t)) S400x1.size (k0_off3_inb (grid0.coords t) ((inSecond_iff t).mpr h))).idx (ix2 p (0 : Fin 1))) = _
  rw [hi]
  exact colSpec_apply m c r

/-! ## What a second-sweep point leaves -/

/-- The normalisation payload over blocks that read as the arguments: the strip's row p being row r of the adjacency,
    its entry at (p, e) is the specification's result at (r, e). -/
theorem pay4_eq (c : Dev nD) (v1 : Vec Ideal S400x10000 .f32) (v10 : Vec Ideal S400x1 .f32) (v11 : Vec Ideal S10000x128 .f32)
    (v13 : Vec Ideal S1x128 .f32) (p : Fin 400) (r : Fin 10000)
    (h1 : ∀ j : Fin 10000, v1 (ix2 p j) = adjA m c r j) (h10 : v10 (ix2 p (0 : Fin 1)) = Cert.Gcn.rowsum (adjA m c) r)
    (h11 : ∀ (j : Fin 10000) (e' : Fin 128), v11 (ix2 j e') = Cert.Gcn.projK (xA m c) (adjA m c) (w1A m c) (b1A m c) (w2A m c) j e')
    (h13 : ∀ e' : Fin 128, v13 (ix2 (0 : Fin 1) e') = b2A m c e') (e : Fin 128) :
    k0_pay4 (F := Ideal) v1 v10 v11 v13 (ix2 p e)
      = Cert.Gcn.kernelVal (xA m c) (adjA m c) (w1A m c) (b1A m c) (w2A m c) (b2A m c) (Ideal.ofBits .f32 0x2B8CBCCC#32) r e := by
  rw [Cert.Gcn.Pay.pay4_apply]
  unfold Cert.Gcn.kernelVal
  refine congrArg (fun o => Cert.Gcn.normalize (Ideal.ofBits .f32 0x2B8CBCCC#32) o e) (funext fun e' => ?_)
  unfold Cert.Gcn.outK
  rw [h10, h13 e']
  exact congrArg (· + Cert.Gcn.rowsum (adjA m c) r * b2A m c e') (Finset.sum_congr rfl fun j _ => by rw [h1 j, h11 j e'])

/-- Position (p, e) of what point t ≥ 25 leaves in the output block is the specification's result at row
    400·(t − 25) + p. -/
theorem outAt_apply (c : Dev nD) (t : Fin cfg0.N) (h : 25 ≤ t.val) (p : Fin 400) (e : Fin 128) (r : Fin 10000) (hr : r.val = 400 * (t.val - 25) + p.val) :
    outAt (F := Ideal) m c t (ix2 p e)
      = Cert.Gcn.kernelVal (xA m c) (adjA m c) (w1A m c) (b1A m c) (w2A m c) (b2A m c) (Ideal.ofBits .f32 0x2B8CBCCC#32) r e := by
  unfold outAt
  rw [dif_pos h]
  have hN : cfg0.N = 50 := N_0
  refine pay4_eq m c _ _ _ _ p r (fun j => Blocks.adj_block m c t p j r ?_) (colRows_apply m c t h p r hr)
    (fun j e' => matSpec_apply m c j e') (fun e' => Blocks.b2_block m c t e') e
  have := t.isLt
  omega

/-! ## The result array -/

/-- The result array as one function of the arguments. -/
def result (c : Dev nD) : S10000x128.Idx → EReal := fun i =>
  Cert.Gcn.kernelVal (xA m c) (adjA m c) (w1A m c) (b1A m c) (w2A m c) (b2A m c) (Ideal.ofBits .f32 0x2B8CBCCC#32) ⟨(i 0).val, (i 0).isLt⟩ ⟨(i 1).val, (i 1).isLt⟩

theorem result_apply (c : Dev nD) (r : Fin 10000) (e : Fin 128) :
    result m c (ix2 r e) = Cert.Gcn.kernelVal (xA m c) (adjA m c) (w1A m c) (b1A m c) (w2A m c) (b2A m c) (Ideal.ofBits .f32 0x2B8CBCCC#32) r e := rfl

/-- The 25 strips written back in the second sweep cover the result array, and each holds the specification's rows:
    the array ends as `result`. -/
theorem final (c : Dev nD) :
    (dats (F := Ideal) m 0 c).arrAt 6 cfg0.N = (result m c : Buf (Elt Ideal) ((cfg0.win 6).arr.view.loc (c.tc : Thread nD τ))) := by
  refine (dats (F := Ideal) m 0 c).arrAt_eq_of_cover 6 (result m c) (fun t hf => ?_) (Blocks.out_cover c)
  have ht : 25 ≤ t.val := (flush_6_iff t).mp hf
  have htl : t.val < 50 := lt_of_lt_of_eq t.isLt N_0
  show (cfg0.win 6).cut (grid0.coords t) ((dats (F := Ideal) m 0 c).after 6 t) = _
  rw [after_6]
  funext y
  obtain ⟨p, e, rfl⟩ : ∃ (p : Fin 400) (e : Fin 128), y = ix2 p e := ⟨y 0, y 1, eq_ix2 y⟩
  obtain ⟨r, hr⟩ : ∃ r : Fin 10000, r.val = 400 * (t.val - 25) + p.val := ⟨⟨400 * (t.val - 25) + p.val, by have := p.isLt; omega⟩, rfl⟩
  rw [Blocks.out_block (F := Ideal) c t ht _ p e r hr]
  exact (outAt_apply m c t ht p e r hr).trans (result_apply m c r e).symm

/-! ## The run -/

/-- The program runs; its result array ends at `result`, and its arguments are unchanged. -/
theorem run_valued (ρ : Dev nD → PrngReg) :
    θ_run defs (onTc (τ := τ) (main (F := Ideal))) ⟨m, fun _ => 0, ρ⟩ (fun r => ∀ c : Dev nD,
        r.2.mem ((c.tc : Thread nD τ).loc main_v2) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun _ h c => ⟨((h c).1 6).trans (final m c),
      ((h c).1 1).trans (((dats (F := Ideal) m 0 c).arrAt_in 1 rfl _).trans ((A_eq m c 1).trans (V_main_arg0 m c))),
      ((h c).1 0).trans (((dats (F := Ideal) m 0 c).arrAt_in 0 rfl _).trans ((A_eq m c 0).trans (V_main_arg1 m c))),
      ((h c).1 2).trans (((dats (F := Ideal) m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats (F := Ideal) m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.KernelIdeal.Result

end
-- ==== Proof.RefValue.lean ====
/-
  The reference program's result, read at a coordinate pair, is the textbook two-layer graph convolution
  followed by the row-wise Euclidean normalisation (`Cert.Gcn.refVal`).

  The reference is a chain of twenty-three array operations. Each stage below reads one group of them at an
  index and recognises one definition of the specification, from the inside out:
  the first linear layer `x W₁ + b₁`, the hidden layer `max (A (x W₁ + b₁)) 0`, the second linear layer
  `h W₂ + b₂`, the second aggregation `A (h W₂ + b₂)`, and finally the quotient of an aggregated entry by the
  larger of its row's Euclidean norm and the lower bound.
  A contraction reads its operands at indices assembled from the result's coordinates and the summation
  variable, and a broadcast reads its operand at a sub-tuple of the result's coordinates; the first block of
  lemmas says that each such index is the coordinate pair (or the single coordinate) one expects.
-/
import proofs.«152062_g74156905332815_cont_9to1_m_764_11_alg».proof.Proof.Gen.ReferenceIdeal.Read
import proofs.«152062_g74156905332815_cont_9to1_m_764_11_alg».proof.Proof.Spec
import Idealize.ShloMosaic.Lib.ValueIdx
import Idealize.ShloMosaic.PureOps.Ideal.Laws

noncomputable section

namespace Cert.Gcn.Ref

open Cert.ReferenceIdeal Cert.ReferenceIdeal.Read Idealize.ShloMosaic Idealize.ShloMosaic.ValueIdx

/-! ## The indices the operations read at -/

/-- `x W₁` at `(k, d)` reads `x` at `(k, c)`. -/
theorem lidx_v0 (k : Fin 10000) (d : Fin 256) (c : Fin 128) : lidx_main_v0 (ix2 k d) c = ix2 k c :=
  funext fun a => Fin.ext (by match a with | ⟨0, _⟩ => rfl | ⟨1, _⟩ => rfl)

/-- `x W₁` at `(k, d)` reads `W₁` at `(c, d)`. -/
theorem ridx_v0 (k : Fin 10000) (d : Fin 256) (c : Fin 128) : ridx_main_v0 (ix2 k d) c = ix2 c d :=
  funext fun a => Fin.ext (by match a with | ⟨0, _⟩ => rfl | ⟨1, _⟩ => rfl)

/-- The first bias, broadcast along the rows, is read at the column. -/
theorem idx_v1v2 (k : Fin 10000) (d : Fin 256) : idx_main_v1 (idx_main_v2 (ix2 k d)) = ix1 d :=
  funext fun a => Fin.ext (by match a with | ⟨0, _⟩ => rfl)

/-- The first aggregation at `(i, d)` reads the adjacency at `(i, k)`. -/
theorem lidx_v4 (i : Fin 10000) (d : Fin 256) (k : Fin 10000) : lidx_main_v4 (ix2 i d) k = ix2 i k :=
  funext fun a => Fin.ext (by match a with | ⟨0, _⟩ => rfl | ⟨1, _⟩ => rfl)

/-- The first aggregation at `(i, d)` reads the linear layer at `(k, d)`. -/
theorem ridx_v4 (i : Fin 10000) (d : Fin 256) (k : Fin 10000) : ridx_main_v4 (ix2 i d) k = ix2 k d :=
  funext fun a => Fin.ext (by match a with | ⟨0, _⟩ => rfl | ⟨1, _⟩ => rfl)

/-- `h W₂` at `(k, e)` reads `h` at `(k, d)`. -/
theorem lidx_v6 (k : Fin 10000) (e : Fin 128) (d : Fin 256) : lidx_main_v6 (ix2 k e) d = ix2 k d :=
  funext fun a => Fin.ext (by match a with | ⟨0, _⟩ => rfl | ⟨1, _⟩ => rfl)

/-- `h W₂` at `(k, e)` reads `W₂` at `(d, e)`. -/
theorem ridx_v6 (k : Fin 10000) (e : Fin 128) (d : Fin 256) : ridx_main_v6 (ix2 k e) d = ix2 d e :=
  funext fun a => Fin.ext (by match a with | ⟨0, _⟩ => rfl | ⟨1, _⟩ => rfl)

/-- The second bias, broadcast along the rows, is read at the column. -/
theorem idx_v7v8 (k : Fin 10000) (e : Fin 128) : idx_main_v7 (idx_main_v8 (ix2 k e)) = ix1 e :=
  funext fun a => Fin.ext (by match a with | ⟨0, _⟩ => rfl)

/-- The second aggregation at `(i, e)` reads the adjacency at `(i, k)`. -/
theorem lidx_v10 (i : Fin 10000) (e : Fin 128) (k : Fin 10000) : lidx_main_v10 (ix2 i e) k = ix2 i k :=
  funext fun a => Fin.ext (by match a with | ⟨0, _⟩ => rfl | ⟨1, _⟩ => rfl)

/-- The second aggregation at `(i, e)` reads the second linear layer at `(k, e)`. -/
theorem ridx_v10 (i : Fin 10000) (e : Fin 128) (k : Fin 10000) : ridx_main_v10 (ix2 i e) k = ix2 k e :=
  funext fun a => Fin.ext (by match a with | ⟨0, _⟩ => rfl | ⟨1, _⟩ => rfl)

/-- The row norm, broadcast along the columns, is read at the row; the sum of squares of row `p` runs over `(p, e')`. -/
theorem idx_norm (p : Fin 10000) (q e' : Fin 128) :
    idx_main_call1_v1 (idx_main_call1_v2 (idx_main_v14 (ix2 p q))) e' = ix2 p e' :=
  funext fun a => Fin.ext (by match a with | ⟨0, _⟩ => rfl | ⟨1, _⟩ => rfl)

/-! ## The stages -/

variable (x0 : (⟨S10000x128, .f32⟩ : BufTy).Contents (Elt Ideal)) (x1 : (⟨S10000x10000, .f32⟩ : BufTy).Contents (Elt Ideal))
  (x2 : (⟨S128x256, .f32⟩ : BufTy).Contents (Elt Ideal)) (x3 : (⟨S256, .f32⟩ : BufTy).Contents (Elt Ideal))
  (x4 : (⟨S256x128, .f32⟩ : BufTy).Contents (Elt Ideal)) (x5 : (⟨S128, .f32⟩ : BufTy).Contents (Elt Ideal))

/-- The first linear layer `x W₁ + b₁`. -/
theorem lin1_eq (k : Fin 10000) (d : Fin 256) :
    val_main_v3 (F := Ideal) x0 x2 x3 (ix2 k d) = lin1 (mat x0) (mat x2) (vec x3) k d := by
  rw [val_main_v3_apply, val_main_v0_apply, val_main_v2_apply, val_main_v1_apply, Ideal.addf_def, idx_v1v2]
  simp only [lidx_v0, ridx_v0]
  rfl

/-- The hidden layer `max (A (x W₁ + b₁)) 0`: the rectifier is the maximum against a broadcast zero. -/
theorem hidR_eq (i : Fin 10000) (d : Fin 256) :
    val_main_v5 (F := Ideal) x0 x1 x2 x3 (ix2 i d) = hidR (mat x0) (mat x1) (mat x2) (vec x3) i d := by
  rw [val_main_v5_apply, val_main_v4_apply, val_main_call0_v0_apply, val_main_call0_cst_apply, Ideal.maximumf_def,
    Ideal.ofBits_def, Ideal.ofBits_zero_f32]
  simp only [lidx_v4, ridx_v4, lin1_eq]
  rfl

/-- The second linear layer `h W₂ + b₂`. -/
theorem lin2_eq (k : Fin 10000) (e : Fin 128) :
    val_main_v9 (F := Ideal) x0 x1 x2 x3 x4 x5 (ix2 k e)
      = lin2 (mat x0) (mat x1) (mat x2) (vec x3) (mat x4) (vec x5) k e := by
  rw [val_main_v9_apply, val_main_v6_apply, val_main_v8_apply, val_main_v7_apply, Ideal.addf_def, idx_v7v8]
  simp only [lidx_v6, ridx_v6, hidR_eq]
  rfl

/-- The second aggregation `A (h W₂ + b₂)`. -/
theorem outR_eq (i : Fin 10000) (e : Fin 128) :
    val_main_v10 (F := Ideal) x0 x1 x2 x3 x4 x5 (ix2 i e)
      = outR (mat x0) (mat x1) (mat x2) (vec x3) (mat x4) (vec x5) i e := by
  rw [val_main_v10_apply]
  simp only [lidx_v10, ridx_v10, lin2_eq]
  rfl

/-- The divisor: the larger of the Euclidean norm of row `p` (the square root of a sum of squares that starts
    from zero) and the lower bound. -/
theorem den_eq (p : Fin 10000) (q : Fin 128) :
    val_main_v14 (F := Ideal) x0 x1 x2 x3 x4 x5 (ix2 p q)
      = max (Ideal.sqrt (∑ e' : Fin 128, outR (mat x0) (mat x1) (mat x2) (vec x3) (mat x4) (vec x5) p e'
            * outR (mat x0) (mat x1) (mat x2) (vec x3) (mat x4) (vec x5) p e'))
          (Ideal.ofBits .f32 0x2B8CBCCC#32) := by
  rw [val_main_v14_apply, val_main_v13_apply, val_main_v11_apply, val_main_call1_v2_apply, val_main_call1_v1_apply,
    val_main_call1_cst_apply, val_main_v12_apply, val_main_cst_apply, Ideal.maximumf_def, Ideal.hostUnary_sqrt_def,
    Ideal.ofBits_def, Ideal.ofBits_def, Ideal.ofBits_zero_f32, zero_add]
  simp only [val_main_call1_v0_apply, Ideal.mulf_def, idx_norm, outR_eq]

/-- The reference's result at `(p, q)` is the specification's `refVal`. -/
theorem val_eq (p : Fin 10000) (q : Fin 128) :
    Cert.ReferenceIdeal.Read.val_main_v15 (F := Ideal) x0 x1 x2 x3 x4 x5 (ix2 p q)
      = Cert.Gcn.refVal (Cert.Gcn.mat x0) (Cert.Gcn.mat x1) (Cert.Gcn.mat x2) (Cert.Gcn.vec x3) (Cert.Gcn.mat x4) (Cert.Gcn.vec x5) (Ideal.ofBits .f32 0x2B8CBCCC#32) p q := by
  rw [val_main_v15_apply, Ideal.hostDivf_def, outR_eq, den_eq]
  rfl

end Cert.Gcn.Ref

end
-- ==== Proof.Algebra.lean ====
/-
  The two evaluation orders of the two-layer graph convolution agree when every entry is a real number.

  The extended reals are not a ring: distributivity fails at the infinities. So each identity is first
  transported to ℝ (the embedding ℝ → EReal commutes with products, finite sums and binary maxima), proved
  there by distributivity and an exchange of the order of summation, and transported back.

  With `a = A i ·` a fixed row of the adjacency:
  * hidden layer:  Σ_c (Σ_k a_k x_kc) W₁_cd + (Σ_k a_k) b₁_d = Σ_k a_k (Σ_c x_kc W₁_cd + b₁_d);
  * second layer:  Σ_k a_k P_ke + (Σ_k a_k) b₂_e = Σ_k a_k (P_ke + b₂_e),
    where `P` is real because the hidden layer is the maximum of a real number and zero.
-/
import proofs.«152062_g74156905332815_cont_9to1_m_764_11_alg».proof.Proof.Spec
import Mathlib.Data.EReal.Basic
import Mathlib.Algebra.BigOperators.Ring.Finset

noncomputable section

namespace Cert.Gcn

open Idealize.ShloMosaic

/-! ## The embedding of ℝ commutes with finite sums and maxima -/

/-- The embedding of ℝ into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The embedding of ℝ into the extended reals is monotone, hence commutes with binary maxima. -/
theorem coe_max (a b : ℝ) : ((max a b : ℝ) : EReal) = max (a : EReal) (b : EReal) :=
  EReal.coe_strictMono.monotone.map_max

/-! ## The two distributive laws, over arbitrary finite index types -/

/-- Hidden layer, in ℝ: contracting the aggregated features against the weights and adding the row sum times
the bias is the aggregation of the affine images. -/
theorem real_hidden_law {κ γ : Type*} [Fintype κ] [Fintype γ] (a : κ → ℝ) (u : κ → γ → ℝ) (w : γ → ℝ)
    (β : ℝ) :
    (∑ c, (∑ k, a k * u k c) * w c) + (∑ k, a k) * β = ∑ k, a k * ((∑ c, u k c * w c) + β) := by
  simp only [mul_add, Finset.sum_add_distrib, Finset.sum_mul, Finset.mul_sum, mul_assoc]
  rw [Finset.sum_comm]

/-- Second layer, in ℝ: the bias can be added before or after the aggregation. -/
theorem real_second_law {κ : Type*} [Fintype κ] (a p : κ → ℝ) (β : ℝ) :
    (∑ k, a k * p k) + (∑ k, a k) * β = ∑ k, a k * (p k + β) := by
  simp only [mul_add, Finset.sum_add_distrib, Finset.sum_mul]

/-- Hidden layer, for real entries embedded in the extended reals. -/
theorem ereal_hidden_law {κ γ : Type*} [Fintype κ] [Fintype γ] (a : κ → ℝ) (u : κ → γ → ℝ) (w : γ → ℝ)
    (β : ℝ) :
    (∑ c, (∑ k, (a k : EReal) * (u k c : EReal)) * (w c : EReal)) + (∑ k, (a k : EReal)) * (β : EReal)
      = ∑ k, (a k : EReal) * ((∑ c, (u k c : EReal) * (w c : EReal)) + (β : EReal)) := by
  simp only [← EReal.coe_mul, ← coe_sum, ← EReal.coe_add]
  rw [real_hidden_law]

/-- Second layer, for real entries embedded in the extended reals. -/
theorem ereal_second_law {κ : Type*} [Fintype κ] (a p : κ → ℝ) (β : ℝ) :
    (∑ k, (a k : EReal) * (p k : EReal)) + (∑ k, (a k : EReal)) * (β : EReal)
      = ∑ k, (a k : EReal) * ((p k : EReal) + (β : EReal)) := by
  simp only [← EReal.coe_mul, ← coe_sum, ← EReal.coe_add]
  rw [real_second_law]

/-! ## The hidden layer -/

section Hidden

variable (x : Fin 10000 → Fin 128 → EReal) (A : Fin 10000 → Fin 10000 → EReal)
  (W1 : Fin 128 → Fin 256 → EReal) (b1 : Fin 256 → EReal)

/-- The two forms of the hidden layer agree on real entries. -/
theorem hidK_eq_hidR
    (hx : ∀ k c, ∃ r : ℝ, x k c = (r : EReal)) (hA : ∀ i k, ∃ r : ℝ, A i k = (r : EReal))
    (hW1 : ∀ c d, ∃ r : ℝ, W1 c d = (r : EReal)) (hb1 : ∀ d, ∃ r : ℝ, b1 d = (r : EReal)) :
    hidK x A W1 b1 = hidR x A W1 b1 := by
  choose xr hx using hx
  choose Ar hA using hA
  choose W1r hW1 using hW1
  choose b1r hb1 using hb1
  funext i d
  simp only [hidK, agg, rowsum, hidR, lin1, hx, hA, hW1, hb1]
  rw [ereal_hidden_law (Ar i) xr (fun c => W1r c d) (b1r d)]

/-- The hidden layer is real-valued: it is the maximum of a real number and zero. -/
theorem hidR_real
    (hx : ∀ k c, ∃ r : ℝ, x k c = (r : EReal)) (hA : ∀ i k, ∃ r : ℝ, A i k = (r : EReal))
    (hW1 : ∀ c d, ∃ r : ℝ, W1 c d = (r : EReal)) (hb1 : ∀ d, ∃ r : ℝ, b1 d = (r : EReal))
    (i : Fin 10000) (d : Fin 256) : ∃ r : ℝ, hidR x A W1 b1 i d = (r : EReal) := by
  choose xr hx using hx
  choose Ar hA using hA
  choose W1r hW1 using hW1
  choose b1r hb1 using hb1
  refine ⟨max (∑ k, Ar i k * ((∑ c, xr k c * W1r c d) + b1r d)) 0, ?_⟩
  simp only [hidR, lin1, hx, hA, hW1, hb1]
  simp only [coe_max, coe_sum, EReal.coe_mul, EReal.coe_add, EReal.coe_zero]

end Hidden

/-! ## The second aggregation, and the result -/

theorem outK_eq_outR (x : Fin 10000 → Fin 128 → EReal) (A : Fin 10000 → Fin 10000 → EReal) (W1 : Fin 128 → Fin 256 → EReal) (b1 : Fin 256 → EReal) (W2 : Fin 256 → Fin 128 → EReal) (b2 : Fin 128 → EReal)
    (hx : ∀ k c, ∃ r : ℝ, x k c = (r : EReal)) (hA : ∀ i k, ∃ r : ℝ, A i k = (r : EReal)) (hW1 : ∀ c d, ∃ r : ℝ, W1 c d = (r : EReal)) (hb1 : ∀ d, ∃ r : ℝ, b1 d = (r : EReal)) (hW2 : ∀ d e, ∃ r : ℝ, W2 d e = (r : EReal)) (hb2 : ∀ e, ∃ r : ℝ, b2 e = (r : EReal)) :
    outK x A W1 b1 W2 b2 = outR x A W1 b1 W2 b2 := by
  have hKR : hidK x A W1 b1 = hidR x A W1 b1 := hidK_eq_hidR x A W1 b1 hx hA hW1 hb1
  choose hr hh using fun i d => hidR_real x A W1 b1 hx hA hW1 hb1 i d
  choose Ar hA' using hA
  choose W2r hW2' using hW2
  choose b2r hb2' using hb2
  funext i e
  simp only [outK, outR, projK, lin2, rowsum, hKR, hh, hA', hW2', hb2']
  simp only [← EReal.coe_mul, ← coe_sum, ← EReal.coe_add]
  rw [EReal.coe_eq_coe_iff]
  exact real_second_law (Ar i) (fun k => ∑ d, hr k d * W2r d e) (b2r e)

theorem kernelVal_eq_refVal (x : Fin 10000 → Fin 128 → EReal) (A : Fin 10000 → Fin 10000 → EReal) (W1 : Fin 128 → Fin 256 → EReal) (b1 : Fin 256 → EReal) (W2 : Fin 256 → Fin 128 → EReal) (b2 : Fin 128 → EReal)
    (hx : ∀ k c, ∃ r : ℝ, x k c = (r : EReal)) (hA : ∀ i k, ∃ r : ℝ, A i k = (r : EReal)) (hW1 : ∀ c d, ∃ r : ℝ, W1 c d = (r : EReal)) (hb1 : ∀ d, ∃ r : ℝ, b1 d = (r : EReal)) (hW2 : ∀ d e, ∃ r : ℝ, W2 d e = (r : EReal)) (hb2 : ∀ e, ∃ r : ℝ, b2 e = (r : EReal)) (eps : EReal) :
    kernelVal x A W1 b1 W2 b2 eps = refVal x A W1 b1 W2 b2 eps := by
  funext i e
  unfold kernelVal refVal
  rw [outK_eq_outR x A W1 b1 W2 b2 hx hA hW1 hb1 hW2 hb2]

end Cert.Gcn

end
-- ==== Proof.Bridge.lean ====
/-
  The two evaluation orders as whole arrays of the six argument arrays, and their agreement on real entries.
-/
import proofs.«152062_g74156905332815_cont_9to1_m_764_11_alg».proof.Proof.Spec
import proofs.«152062_g74156905332815_cont_9to1_m_764_11_alg».proof.Proof.Algebra

noncomputable section

namespace Cert.Gcn

open Idealize.ShloMosaic

/-- The kernel's result array, as a function of the six argument arrays. -/
def kernelArr (a0 : (⟨2, ![10000, 128]⟩ : Shape).Idx → EReal) (a1 : (⟨2, ![10000, 10000]⟩ : Shape).Idx → EReal)
    (a2 : (⟨2, ![128, 256]⟩ : Shape).Idx → EReal) (a3 : (⟨1, ![256]⟩ : Shape).Idx → EReal)
    (a4 : (⟨2, ![256, 128]⟩ : Shape).Idx → EReal) (a5 : (⟨1, ![128]⟩ : Shape).Idx → EReal) :
    (⟨2, ![10000, 128]⟩ : Shape).Idx → EReal := fun i =>
  kernelVal (mat a0) (mat a1) (mat a2) (vec a3) (mat a4) (vec a5) (Ideal.ofBits .f32 0x2B8CBCCC#32)
    ⟨(i 0).val, (i 0).isLt⟩ ⟨(i 1).val, (i 1).isLt⟩

/-- The reference's result array, as a function of the six argument arrays. -/
def refArr (a0 : (⟨2, ![10000, 128]⟩ : Shape).Idx → EReal) (a1 : (⟨2, ![10000, 10000]⟩ : Shape).Idx → EReal)
    (a2 : (⟨2, ![128, 256]⟩ : Shape).Idx → EReal) (a3 : (⟨1, ![256]⟩ : Shape).Idx → EReal)
    (a4 : (⟨2, ![256, 128]⟩ : Shape).Idx → EReal) (a5 : (⟨1, ![128]⟩ : Shape).Idx → EReal) :
    (⟨2, ![10000, 128]⟩ : Shape).Idx → EReal := fun i =>
  refVal (mat a0) (mat a1) (mat a2) (vec a3) (mat a4) (vec a5) (Ideal.ofBits .f32 0x2B8CBCCC#32)
    ⟨(i 0).val, (i 0).isLt⟩ ⟨(i 1).val, (i 1).isLt⟩

/-- On arrays of real numbers the reference's result is the kernel's: distributivity, twice. -/
theorem refArr_eq_kernelArr (a0 : (⟨2, ![10000, 128]⟩ : Shape).Idx → EReal) (a1 : (⟨2, ![10000, 10000]⟩ : Shape).Idx → EReal)
    (a2 : (⟨2, ![128, 256]⟩ : Shape).Idx → EReal) (a3 : (⟨1, ![256]⟩ : Shape).Idx → EReal)
    (a4 : (⟨2, ![256, 128]⟩ : Shape).Idx → EReal) (a5 : (⟨1, ![128]⟩ : Shape).Idx → EReal)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) (h5 : ∀ i, ∃ r : ℝ, a5 i = (r : EReal)) :
    refArr a0 a1 a2 a3 a4 a5 = kernelArr a0 a1 a2 a3 a4 a5 := by
  funext i
  unfold refArr kernelArr
  rw [kernelVal_eq_refVal (mat a0) (mat a1) (mat a2) (vec a3) (mat a4) (vec a5) (fun k c => h0 _) (fun i k => h1 _) (fun c d => h2 _)
    (fun d => h3 _) (fun d e => h4 _) (fun e => h5 _)]

/-- The same with the reference's arrays given up to equality: the form the two programs' runs are joined in. -/
theorem refArr_eq_kernelArr_of_eq (a0 b0 : (⟨2, ![10000, 128]⟩ : Shape).Idx → EReal) (a1 b1 : (⟨2, ![10000, 10000]⟩ : Shape).Idx → EReal)
    (a2 b2 : (⟨2, ![128, 256]⟩ : Shape).Idx → EReal) (a3 b3 : (⟨1, ![256]⟩ : Shape).Idx → EReal)
    (a4 b4 : (⟨2, ![256, 128]⟩ : Shape).Idx → EReal) (a5 b5 : (⟨1, ![128]⟩ : Shape).Idx → EReal)
    (e0 : b0 = a0) (e1 : b1 = a1) (e2 : b2 = a2) (e3 : b3 = a3) (e4 : b4 = a4) (e5 : b5 = a5)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) (h5 : ∀ i, ∃ r : ℝ, a5 i = (r : EReal)) :
    refArr b0 b1 b2 b3 b4 b5 = kernelArr a0 a1 a2 a3 a4 a5 := by
  subst e0 e1 e2 e3 e4 e5
  exact refArr_eq_kernelArr _ _ _ _ _ _ h0 h1 h2 h3 h4 h5

end Cert.Gcn

end
-- ==== Proof.RefResult.lean ====
/-
  The reference program's run with its result array named: the generated run ends with the result at the
  composed term of the operations, which read at every index is the specification's reference-order value.
-/
import proofs.«152062_g74156905332815_cont_9to1_m_764_11_alg».proof.Proof.RefValue
import proofs.«152062_g74156905332815_cont_9to1_m_764_11_alg».proof.Proof.Bridge

noncomputable section

namespace Cert.ReferenceIdeal.Result

open Cert.ReferenceIdeal Cert.ReferenceIdeal.Gen Idealize.ShloMosaic Idealize.ShloMosaic.TcCoe Idealize.SL.Sem Idealize.ShloMosaic.ValueIdx

/-- The stage the run's result term folds to is the reference-order array of the six arguments. -/
theorem stage_eq (x0 : (⟨S10000x128, .f32⟩ : BufTy).Contents (Elt Ideal)) (x1 : (⟨S10000x10000, .f32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal)) :
    Cert.ReferenceIdeal.Read.val_main_v15 (F := Ideal) x0 x1 x2 x3 x4 x5 = Cert.Gcn.refArr x0 x1 x2 x3 x4 x5 := by
  funext i
  obtain ⟨p, q, rfl⟩ : ∃ (p : Fin 10000) (q : Fin 128), i = ix2 p q := ⟨i 0, i 1, eq_ix2 i⟩
  rw [Cert.Gcn.Ref.val_eq x0 x1 x2 x3 x4 x5 p q]
  rfl

/-- The reference runs, its result array ends at the reference-order array of its arguments, its arguments unchanged. -/
theorem run_valued (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
          = Cert.Gcn.refArr (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((Cert.ReferenceIdeal.Read.val_main_v15_eq (F := Ideal) _ _ _ _ _ _).trans (stage_eq _ _ _ _ _ _)), (h c).2⟩)
    (Cert.ReferenceIdeal.Value.run (F := Ideal) m ρ)

end Cert.ReferenceIdeal.Result

end
-- ==== Proof.Finite.lean ====
import proofs.«152062_g74156905332815_cont_9to1_m_764_11_alg».proof.Pre_finite_inputs
import proofs.«152062_g74156905332815_cont_9to1_m_764_11_alg».proof.Proof.Gen.Pre_finite_inputs
import Idealize.ShloMosaic.Lib.ReduceAll
import Idealize.ShloMosaic.PureOps.Ideal
import Idealize.ShloMosaic.Lib.ValueIdx

/-!
# Finite inputs are real numbers

The precondition is the conjunction, over the six inputs, of "every entry has absolute value below +∞".
Read over the extended reals, an entry with |x| < ⊤ is neither ⊤ nor ⊥, hence a real number.
-/

namespace Cert.Gcn.Fin

open Idealize.ShloMosaic

/-- The binary32 pattern with all-ones exponent, zero fraction and clear sign denotes +∞. -/
theorem ofBits_pos_inf : Ideal.ofBits .f32 0x7F800000#32 = (⊤ : EReal) := by
  simp [Ideal.ofBits, Ideal.ieee]

/-- An extended real whose absolute value max x (-x) lies below ⊤ is a real number:
    at ⊥ the absolute value is -⊥ = ⊤ and at ⊤ it is ⊤ itself, neither of which is below ⊤. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The ordered "less than" comparison answers the bit 1 exactly when the strict inequality holds. -/
theorem cmp_olt_eq_one {x y : EReal} (h : Ideal.cmp .olt x y = 1#1) : x < y := by
  unfold Ideal.cmp at h
  by_contra hn
  simp [hn] at h

/-- The rank-0 shape has a single index. -/
instance subsingleton_scalar_idx : Subsingleton (⟨0, ![]⟩ : Shape).Idx :=
  ⟨fun a b => funext fun d => d.elim0⟩

/-- jnp.all(|a| < +∞) = true, at any shape: the reduce by "and" of the entrywise comparison of |a|
    against the broadcast +∞ constant being 1 makes every entry of a a real number. -/
theorem all_lt_inf {S T U V : Shape} [Subsingleton T.Idx] {axes : List (Fin S.rank)}
    {dims : Fin U.rank → Fin S.rank} (hb : U.BroadcastsInDim S dims) (hr : S.ReducesTo axes T)
    (hv : 0 < V.numel) (init : IVec V 1) (a : FVec Ideal S .f32) (j : T.Idx)
    (h : Host.reduce IntOp.andi
          (cmpf .olt (Host.absf a) (broadcastInDim S dims hb (constant (F := Ideal) U .f32 0x7F800000#32)))
          init hr hv j = 1#1) :
    ∀ i, ∃ r : ℝ, a i = (r : EReal) := by
  intro i
  have e := Host.reduce_andi_all _ init hr hv j h i
  have e' : Ideal.cmp .olt (max (a i) (-(a i))) (Ideal.ofBits .f32 0x7F800000#32) = 1#1 := e
  rw [ofBits_pos_inf] at e'
  exact real_of_abs_lt_top (a i) (cmp_olt_eq_one e')

open Cert.Pre_finite_inputs in
/-- The precondition, read over the extended reals: every entry of every input is a real number. -/
theorem real_of_pre [Cert.Pre_finite_inputs.Facts]
    (a0 : FVec Ideal S10000x128 .f32) (a1 : FVec Ideal S10000x10000 .f32) (a2 : FVec Ideal S128x256 .f32)
    (a3 : FVec Ideal S256 .f32) (a4 : FVec Ideal S256x128 .f32) (a5 : FVec Ideal S128 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) := by
  have h0 := congrFun h ValueIdx.ix0
  unfold Cert.Pre_finite_inputs.fn Cert.Pre_finite_inputs.fn_part1 at h0
  dsimp only [Idealize.ShloMosaic.andi] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨all_lt_inf _ _ _ _ a0 _ h0', all_lt_inf _ _ _ _ a1 _ h1, all_lt_inf _ _ _ _ a2 _ h2,
    all_lt_inf _ _ _ _ a3 _ h3, all_lt_inf _ _ _ _ a4 _ h4, all_lt_inf _ _ _ _ a5 _ h5⟩

end Cert.Gcn.Fin
-- ==== Proof.lean ====
/-
  A fused two-layer dense graph convolution with row-wise Euclidean normalisation against its textbook
  definition, over the extended reals.

  The kernel makes two sweeps over the 25 row strips of the adjacency A. The first sweep keeps, per strip, the row
  sums of A and the rows of  relu((A x) W₁ + rowsum(A) b₁) W₂ ; the second forms  A P + rowsum(A) b₂  against the
  kept matrix P and divides each row by the larger of its norm and a fixed positive bound. The definition forms
  relu(A (x W₁ + b₁)), then  A (h W₂ + b₂), then the same normalisation. On real entries — which is what the
  precondition says of every input — the two agree by distributivity of the aggregation over the affine layers
  (twice), and the normalisation is one function of the aggregated row on both sides.

  The three frames: each of the two kernel programs runs its body once per grid point under an invariant that
  says which rows of the two carried buffers are already filled; the reference is a straight line of host
  operations. The idealized kernel is the kernel's own text read at the extended reals (no rewrite was applied).
-/
import proofs.«152062_g74156905332815_cont_9to1_m_764_11_alg».proof.Defs
import proofs.«152062_g74156905332815_cont_9to1_m_764_11_alg».proof.Proof.Gen.Kernel
import proofs.«152062_g74156905332815_cont_9to1_m_764_11_alg».proof.Proof.Gen.KernelIdeal
import proofs.«152062_g74156905332815_cont_9to1_m_764_11_alg».proof.Proof.Gen.ReferenceIdeal
import proofs.«152062_g74156905332815_cont_9to1_m_764_11_alg».proof.Proof.Gen.Pre_finite_inputs
import proofs.«152062_g74156905332815_cont_9to1_m_764_11_alg».proof.Proof.Gen.ReferenceIdeal.Read
import proofs.«152062_g74156905332815_cont_9to1_m_764_11_alg».proof.Proof.SweepsBits.Obligation
import proofs.«152062_g74156905332815_cont_9to1_m_764_11_alg».proof.Proof.SweepsIdeal.Obligation
import proofs.«152062_g74156905332815_cont_9to1_m_764_11_alg».proof.Proof.KernelValue
import proofs.«152062_g74156905332815_cont_9to1_m_764_11_alg».proof.Proof.RefResult
import proofs.«152062_g74156905332815_cont_9to1_m_764_11_alg».proof.Proof.Bridge
import proofs.«152062_g74156905332815_cont_9to1_m_764_11_alg».proof.Proof.Finite
import Idealize.ShloMosaic.Adequacy
import Idealize.ShloMosaic.Init

noncomputable section

namespace Cert.Proof

open Idealize.ShloMosaic Idealize.SL.Sem

/-- The kernel runs and leaves its arguments unchanged. -/
theorem frame_kernel : Cert.frame_Kernel := fun m ρ _ => Cert.Kernel.Sweeps.frame (F := Bits) m ρ

/-- So does the kernel read at the extended reals. -/
theorem frame_kernelIdeal : Cert.frame_KernelIdeal := fun m ρ _ => Cert.KernelIdeal.Sweeps.frame (F := Ideal) m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading at the extended reals. -/
theorem preserves : Cert.preserves_Kernel_KernelIdeal := trivial

/-- From memories agreeing on the six arguments, every one of them an array of real numbers, the kernel's result
    array is the reference's: the kernel-order array of the arguments on one side, the reference-order array on
    the other, equal by distributivity. -/
theorem algebraic : Cert.algebraic_KernelIdeal_ReferenceIdeal := fun m ρ m' ρ' hpre hagree =>
  ⟨_, Cert.KernelIdeal.Result.run_valued m ρ,
    (θ_run Cert.ReferenceIdeal.defs _ _).mono (fun _ h c => ⟨(h c).1.trans
        (Cert.Gcn.refArr_eq_kernelArr_of_eq _ _ _ _ _ _ _ _ _ _ _ _
          (hagree c).1 (hagree c).2.1 (hagree c).2.2.1 (hagree c).2.2.2.1 (hagree c).2.2.2.2.1 (hagree c).2.2.2.2.2
          (Cert.Gcn.Fin.real_of_pre _ _ _ _ _ _ (hpre c)).1 (Cert.Gcn.Fin.real_of_pre _ _ _ _ _ _ (hpre c)).2.1
          (Cert.Gcn.Fin.real_of_pre _ _ _ _ _ _ (hpre c)).2.2.1 (Cert.Gcn.Fin.real_of_pre _ _ _ _ _ _ (hpre c)).2.2.2.1
          (Cert.Gcn.Fin.real_of_pre _ _ _ _ _ _ (hpre c)).2.2.2.2.1 (Cert.Gcn.Fin.real_of_pre _ _ _ _ _ _ (hpre c)).2.2.2.2.2),
        (h c).2⟩)
      (Cert.ReferenceIdeal.Result.run_valued m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
